-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x256 : Shape := ⟨3, ![2, 1024, 256]⟩
abbrev S512x64 : Shape := ⟨2, ![512, 64]⟩
abbrev S64 : Shape := ⟨1, ![64]⟩
abbrev S65x64 : Shape := ⟨2, ![65, 64]⟩
abbrev S_ : Shape := ⟨0, ![]⟩

class Facts : Prop where
  bcast_S_S2x1024x256 : S_.BroadcastsInDim S2x1024x256 (![] : Fin 0 → Fin S2x1024x256.rank)
  reducesTo_S2x1024x256_S_d0_1_2 : S2x1024x256.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S65x64 : S_.BroadcastsInDim S65x64 (![] : Fin 0 → Fin S65x64.rank)
  reducesTo_S65x64_S_d0_1 : S65x64.ReducesTo [0, 1] S_

variable [Facts]

def fn_part1 {F : FTy → Type} [FloatOps F] (main_arg4 : FVec F S64 .f32) (main_arg5 : FVec F S65x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S65x64 .f32 := Host.absf main_arg5
  let main_cst_8 : FVec F S_ .f32 := constant S_ .f32 0x7F800000#32
  let main_v25 : FVec F S65x64 .f32 := broadcastInDim S65x64 ![] bcast_S_S65x64 main_cst_8
  let main_v26 : IVec S65x64 1 := cmpf .olt main_v24 main_v25
  let main_c_9 : IVec S_ 1 := constantI S_ 1 1#1
  let main_v27 : IVec S_ 1 := (fun x v => Host.reduce IntOp.andi x v reducesTo_S65x64_S_d0_1 h_S_) main_v26 main_c_9
  let main_v28 : IVec S_ 1 := andi main_v23 main_v27
  main_v28

def fn {F : FTy → Type} [FloatOps F] (main_arg0 : FVec F S2x1024x256 .f32) (main_arg1 : FVec F S512x64 .f32) (main_arg2 : FVec F S64 .f32) (main_arg3 : FVec F S64 .f32) (main_arg4 : FVec F S64 .f32) (main_arg5 : FVec F S65x64 .f32) : IVec S_ 1 :=
  let main_v0 : FVec F S2x1024x256 .f32 := Host.absf main_arg0
  let main_cst : FVec F S_ .f32 := constant S_ .f32 0x7F800000#32
  let main_v1 : FVec F S2x1024x256 .f32 := broadcastInDim S2x1024x256 ![] bcast_S_S2x1024x256 main_cst
  let main_v2 : IVec S2x1024x256 1 := cmpf .olt main_v0 main_v1
  let main_c : IVec S_ 1 := constantI S_ 1 1#1
  let main_v3 : IVec S_ 1 := (fun x v => Host.reduce IntOp.andi x v reducesTo_S2x1024x256_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S2x1024x256 : Shape := ⟨3, ![2, 1024, 256]⟩
abbrev S512x64 : Shape := ⟨2, ![512, 64]⟩
abbrev S64 : Shape := ⟨1, ![64]⟩
abbrev S65x64 : Shape := ⟨2, ![65, 64]⟩
abbrev S256x64 : Shape := ⟨2, ![256, 64]⟩
abbrev S2x1024x64 : Shape := ⟨3, ![2, 1024, 64]⟩
abbrev S1x1024x256 : Shape := ⟨3, ![1, 1024, 256]⟩
abbrev S1x1024x64 : Shape := ⟨3, ![1, 1024, 64]⟩
abbrev S1024x256 : Shape := ⟨2, ![1024, 256]⟩
abbrev S1024x64 : Shape := ⟨2, ![1024, 64]⟩
abbrev S2x1024x1024x64 : Shape := ⟨4, ![2, 1024, 1024, 64]⟩
abbrev S1x128x64 : Shape := ⟨3, ![1, 128, 64]⟩
abbrev S1x64x64 : Shape := ⟨3, ![1, 64, 64]⟩
abbrev S1x128x64x64 : Shape := ⟨4, ![1, 128, 64, 64]⟩
abbrev S1x128x1x64 : Shape := ⟨4, ![1, 128, 1, 64]⟩
abbrev S1x1x64x64 : Shape := ⟨4, ![1, 1, 64, 64]⟩
abbrev S1x1x1x64 : Shape := ⟨4, ![1, 1, 1, 64]⟩
abbrev S1x128x64x1 : Shape := ⟨4, ![1, 128, 64, 1]⟩
abbrev S128x64 : Shape := ⟨2, ![128, 64]⟩
abbrev S128x64x65 : Shape := ⟨3, ![128, 64, 65]⟩
abbrev S128x64x1 : Shape := ⟨3, ![128, 64, 1]⟩
abbrev S8192x65 : Shape := ⟨2, ![8192, 65]⟩
abbrev S8192x64 : Shape := ⟨2, ![8192, 64]⟩

abbrev nBuf : Space → Nat
  | .hbm => 11
  | .vmem => 18
  | .smem => 0
  | _ => 0

abbrev bufTy : (tb : Table) → Fin (tcTables nBuf tb) → BufTy
  | .hbm, ⟨0, _⟩ => ⟨S2x1024x256, .f32⟩
  | .hbm, ⟨1, _⟩ => ⟨S512x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S65x64, .f32⟩
  | .hbm, ⟨6, _⟩ => ⟨S256x64, .f32⟩
  | .hbm, ⟨7, _⟩ => ⟨S256x64, .f32⟩
  | .hbm, ⟨8, _⟩ => ⟨S2x1024x64, .f32⟩
  | .hbm, ⟨9, _⟩ => ⟨S2x1024x64, .f32⟩
  | .hbm, ⟨10, _⟩ => ⟨S2x1024x1024x64, .f32⟩
  | .local _ .vmem, ⟨0, _⟩ => ⟨S1x1024x256, .f32⟩
  | .local _ .vmem, ⟨1, _⟩ => ⟨S1x1024x256, .f32⟩
  | .local _ .vmem, ⟨2, _⟩ => ⟨S256x64, .f32⟩
  | .local _ .vmem, ⟨3, _⟩ => ⟨S256x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x128x64, .f32⟩
  | .local _ .vmem, ⟨9, _⟩ => ⟨S1x128x64, .f32⟩
  | .local _ .vmem, ⟨10, _⟩ => ⟨S1x64x64, .f32⟩
  | .local _ .vmem, ⟨11, _⟩ => ⟨S1x64x64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S65x64, .f32⟩
  | .local _ .vmem, ⟨16, _⟩ => ⟨S1x128x64x64, .f32⟩
  | .local _ .vmem, ⟨17, _⟩ => ⟨S1x128x64x64, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 8, 16], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S65x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x128x64x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

class Facts₀ : Prop where
  slices_S512x64_S256x64_0_0 : S512x64.Slices ![0, 0] S256x64
  slices_S512x64_S256x64_256_0 : S512x64.Slices ![256, 0] S256x64
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1x128x64_S1x128x64_0_0_0 : ∀ a, (![0, 0, 0] : Fin 3 → Nat) a + S1x128x64.size a ≤ S1x128x64.size a
  h_S1x128x64 : 0 < S1x128x64.numel
  shapeCasts_S1x128x64_S1x128x64 : S1x128x64.ShapeCasts S1x128x64
  inb_S1x64x64_S1x64x64_0_0_0 : ∀ a, (![0, 0, 0] : Fin 3 → Nat) a + S1x64x64.size a ≤ S1x64x64.size a
  h_S1x64x64 : 0 < S1x64x64.numel
  shapeCasts_S1x64x64_S1x64x64 : S1x64x64.ShapeCasts S1x64x64
  inb_S64_S64_0 : ∀ a, (![0] : Fin 1 → Nat) a + S64.size a ≤ S64.size a
  h_S64 : 0 < S64.numel
  inb_S65x64_S65x64_0_0 : ∀ a, (![0, 0] : Fin 2 → Nat) a + S65x64.size a ≤ S65x64.size a
  h_S65x64 : 0 < S65x64.numel
  shapeCasts_S1x128x64_S1x128x1x64 : S1x128x64.ShapeCasts S1x128x1x64
  shapeCasts_S1x64x64_S1x1x64x64 : S1x64x64.ShapeCasts S1x1x64x64
  broadcasts_S1x128x1x64_S1x128x64x64 : S1x128x1x64.Broadcasts S1x128x64x64
  broadcasts_S1x1x64x64_S1x128x64x64 : S1x1x64x64.Broadcasts S1x128x64x64
  shapeCasts_S64_S1x1x1x64 : S64.ShapeCasts S1x1x1x64
  broadcasts_S1x1x1x64_S1x128x64x64 : S1x1x1x64.Broadcasts S1x128x64x64
  reduces_S1x128x64x64_S1x128x64 : S1x128x64x64.Reduces [3] S1x128x64
  shapeCasts_S1x128x64_S1x128x64x1 : S1x128x64.ShapeCasts S1x128x64x1
  broadcasts_S1x128x64x1_S1x128x64x64 : S1x128x64x1.Broadcasts S1x128x64x64
  iota_S128x64_d0_w32 : S128x64.Iotas .tc 32 [0]
  iota_S128x64_d1_w32 : S128x64.Iotas .tc 32 [1]
  iota_S128x64x65_d2_w32 : S128x64x65.Iotas .tc 32 [2]
  shapeCasts_S128x64_S128x64x1 : S128x64.ShapeCasts S128x64x1
  broadcasts_S128x64x1_S128x64x65 : S128x64x1.Broadcasts S128x64x65
  natLt_1_32 : 1 < 32
  shapeCasts_S128x64x65_S8192x65 : S128x64x65.ShapeCasts S8192x65
  shapeCasts_S8192x64_S1x128x64x64 : S8192x64.ShapeCasts S1x128x64x64
  inb_S1x128x64x64_S1x128x64x64_0_0_0_0 : ∀ a, (![0, 0, 0, 0] : Fin 4 → Nat) a + S1x128x64x64.size a ≤ S1x128x64x64.size a
  h_S1x128x64x64 : 0 < S1x128x64x64.numel
  dot_S1024x256_S256x64_S1024x64_1_0_0_1_n_n_wf : DotDims.WF S1024x256 S256x64 S1024x64 [1] [0] [0] [1] [] []
  dot_S8192x65_S65x64_S8192x64_1_0_0_1_n_n_wf : DotDims.WF S8192x65 S65x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S2x1024x256.size a
  hwx0_0 : ∀ i : grid0.Coords, EltTy.bits .f32 = 32 ∨ (Rect.block (s := S2x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S2x1024x64.size a
  hwx0_3 : ∀ i : grid0.Coords, EltTy.bits .f32 = 32 ∨ (Rect.block (s := S2x1024x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S2x1024x64.size a
  hwx0_4 : ∀ i : grid0.Coords, EltTy.bits .f32 = 32 ∨ (Rect.block (s := S2x1024x64) S1x1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S2x1024x64.size a
  hwx1_0 : ∀ i : grid1.Coords, EltTy.bits .f32 = 32 ∨ (Rect.block (s := S2x1024x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S2x1024x64.size a
  hwx1_1 : ∀ i : grid1.Coords, EltTy.bits .f32 = 32 ∨ (Rect.block (s := S2x1024x64) S1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S65x64.size a ≤ S65x64.size a
  hwx1_5 : ∀ i : grid1.Coords, EltTy.bits .f32 = 32 ∨ (Rect.block (s := S65x64) S65x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x64x64.size a ≤ S2x1024x1024x64.size a
  hwx1_6 : ∀ i : grid1.Coords, EltTy.bits .f32 = 32 ∨ (Rect.block (s := S2x1024x1024x64) S1x128x64x64.size (cc1_transform_6 i) (hinb1_6 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S8192x65_S65x64_S8192x64_1_0_0_1_n_n : DotDims S8192x65 S65x64 S8192x64 where
  lhsContracting := [1]
  rhsContracting := [0]
  lhsNonContracting := [0]
  rhsNonContracting := [1]
  lhsBatch := []
  rhsBatch := []
  wf := dot_S8192x65_S65x64_S8192x64_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S65x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128x64x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x1024x256 : Shape := ⟨3, ![2, 1024, 256]⟩
abbrev S512x64 : Shape := ⟨2, ![512, 64]⟩
abbrev S64 : Shape := ⟨1, ![64]⟩
abbrev S65x64 : Shape := ⟨2, ![65, 64]⟩
abbrev S256x64 : Shape := ⟨2, ![256, 64]⟩
abbrev S2x1024x64 : Shape := ⟨3, ![2, 1024, 64]⟩
abbrev S2x1024x1x64 : Shape := ⟨4, ![2, 1024, 1, 64]⟩
abbrev S2x1x1024x64 : Shape := ⟨4, ![2, 1, 1024, 64]⟩
abbrev S2x1024x1024x64 : Shape := ⟨4, ![2, 1024, 1024, 64]⟩
abbrev S1x1x1x64 : Shape := ⟨4, ![1, 1, 1, 64]⟩
abbrev S_ : Shape := ⟨0, ![]⟩
abbrev S2x1024x1024 : Shape := ⟨3, ![2, 1024, 1024]⟩
abbrev S2x1024x1024x1 : Shape := ⟨4, ![2, 1024, 1024, 1]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1024x1024x1 : Shape := ⟨3, ![1024, 1024, 1]⟩
abbrev S1024x1024x64 : Shape := ⟨3, ![1024, 1024, 64]⟩
abbrev S1x1024x1024x64 : Shape := ⟨4, ![1, 1024, 1024, 64]⟩

abbrev nBuf : Space → Nat
  | .hbm => 79
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S512x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S65x64, .f32⟩
  | .hbm, ⟨6, _⟩ => ⟨S256x64, .f32⟩
  | .hbm, ⟨7, _⟩ => ⟨S256x64, .f32⟩
  | .hbm, ⟨8, _⟩ => ⟨S2x1024x64, .f32⟩
  | .hbm, ⟨9, _⟩ => ⟨S2x1024x64, .f32⟩
  | .hbm, ⟨10, _⟩ => ⟨S2x1024x1x64, .f32⟩
  | .hbm, ⟨11, _⟩ => ⟨S2x1x1024x64, .f32⟩
  | .hbm, ⟨12, _⟩ => ⟨S2x1024x1024x64, .f32⟩
  | .hbm, ⟨13, _⟩ => ⟨S2x1024x1024x64, .f32⟩
  | .hbm, ⟨14, _⟩ => ⟨S2x1024x1024x64, .f32⟩
  | .hbm, ⟨15, _⟩ => ⟨S1x1x1x64, .f32⟩
  | .hbm, ⟨16, _⟩ => ⟨S2x1024x1024x64, .f32⟩
  | .hbm, ⟨17, _⟩ => ⟨S2x1024x1024x64, .f32⟩
  | .hbm, ⟨18, _⟩ => ⟨S_, .f32⟩
  | .hbm, ⟨19, _⟩ => ⟨S2x1024x1024, .f32⟩
  | .hbm, ⟨20, _⟩ => ⟨S2x1024x1024x1, .f32⟩
  | .hbm, ⟨21, _⟩ => ⟨S_, .f32⟩
  | .hbm, ⟨22, _⟩ => ⟨S2x1024x1024x1, .f32⟩
  | .hbm, ⟨23, _⟩ => ⟨S2x1024x1024x1, .f32⟩
  | .hbm, ⟨24, _⟩ => ⟨S2x1024x1024x64, .f32⟩
  | .hbm, ⟨25, _⟩ => ⟨S2x1024x1024x64, .f32⟩
  | .hbm, ⟨26, _⟩ => ⟨S2x1024x1024x64, .f32⟩
  | .hbm, ⟨27, _⟩ => ⟨S_, .f32⟩
  | .hbm, ⟨28, _⟩ => ⟨S2x1024x1024, .f32⟩
  | .hbm, ⟨29, _⟩ => ⟨S2x1024x1024x1, .f32⟩
  | .hbm, ⟨30, _⟩ => ⟨S_, .f32⟩
  | .hbm, ⟨31, _⟩ => ⟨S2x1024x1024x1, .f32⟩
  | .hbm, ⟨32, _⟩ => ⟨S2x1024x1024x1, .f32⟩
  | .hbm, ⟨33, _⟩ => ⟨S2x1024x1024x64, .f32⟩
  | .hbm, ⟨34, _⟩ => ⟨S2x1024x1024x64, .f32⟩
  | .hbm, ⟨35, _⟩ => ⟨S_, .f32⟩
  | .hbm, ⟨36, _⟩ => ⟨S2x1024x1024x1, .f32⟩
  | .hbm, ⟨37, _⟩ => ⟨S2x1024x1024x1, .f32⟩
  | .hbm, ⟨38, _⟩ => ⟨S2x1024x1024x1, .f32⟩
  | .hbm, ⟨39, _⟩ => ⟨S2x1024x1024x64, .f32⟩
  | .hbm, ⟨40, _⟩ => ⟨S2x1024x1024x64, .f32⟩
  | .hbm, ⟨41, _⟩ => ⟨S1x1x1x64, .f32⟩
  | .hbm, ⟨42, _⟩ => ⟨S2x1024x1024x64, .f32⟩
  | .hbm, ⟨43, _⟩ => ⟨S2x1024x1024x64, .f32⟩
  | .hbm, ⟨44, _⟩ => ⟨S1x1x1x64, .f32⟩
  | .hbm, ⟨45, _⟩ => ⟨S2x1024x1024x64, .f32⟩
  | .hbm, ⟨46, _⟩ => ⟨S2x1024x1024x64, .f32⟩
  | .hbm, ⟨47, _⟩ => ⟨S_, .f32⟩
  | .hbm, ⟨48, _⟩ => ⟨S2x1024x1024x64, .f32⟩
  | .hbm, ⟨49, _⟩ => ⟨S2x1024x1024x64, .f32⟩
  | .hbm, ⟨50, _⟩ => ⟨S1024, .i32⟩
  | .hbm, ⟨51, _⟩ => ⟨S1x1024, .i32⟩
  | .hbm, ⟨52, _⟩ => ⟨S1024x1, .i32⟩
  | .hbm, ⟨53, _⟩ => ⟨S1024x1024, .i32⟩
  | .hbm, ⟨54, _⟩ => ⟨S1024x1024, .i32⟩
  | .hbm, ⟨55, _⟩ => ⟨S1024x1024, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1024x1024, .i32⟩
  | .hbm, ⟨60, _⟩ => ⟨S1024x1024, .i32⟩
  | .hbm, ⟨61, _⟩ => ⟨S_, .i32⟩
  | .hbm, ⟨62, _⟩ => ⟨S1024x1024, .i32⟩
  | .hbm, ⟨63, _⟩ => ⟨S1024x1024, .i32⟩
  | .hbm, ⟨64, _⟩ => ⟨S_, .i32⟩
  | .hbm, ⟨65, _⟩ => ⟨S1024x1024, .i32⟩
  | .hbm, ⟨66, _⟩ => ⟨S1024x1024, .i32⟩
  | .hbm, ⟨67, _⟩ => ⟨S_, .i32⟩
  | .hbm, ⟨68, _⟩ => ⟨S1024x1024, .i32⟩
  | .hbm, ⟨69, _⟩ => ⟨S1024x1024, .i1⟩
  | .hbm, ⟨70, _⟩ => ⟨S_, .i32⟩
  | .hbm, ⟨71, _⟩ => ⟨S1024x1024, .i32⟩
  | .hbm, ⟨72, _⟩ => ⟨S1024x1024, .i32⟩
  | .hbm, ⟨73, _⟩ => ⟨S1024x1024, .i32⟩
  | .hbm, ⟨74, _⟩ => ⟨S1024x1024x1, .i32⟩
  | .hbm, ⟨75, _⟩ => ⟨S1024x1024x64, .f32⟩
  | .hbm, ⟨76, _⟩ => ⟨S1x1024x1024x64, .f32⟩
  | .hbm, ⟨77, _⟩ => ⟨S2x1024x1024x64, .f32⟩
  | .hbm, ⟨78, _⟩ => ⟨S2x1024x1024x64, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_cst : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.hbm, 56, rfl⟩
abbrev main_c_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v43 : Ref sig .tc := ⟨.hbm, 63, rfl⟩
abbrev main_c_5 : Ref sig .tc := ⟨.hbm, 64, rfl⟩
abbrev main_v44 : Ref sig .tc := ⟨.hbm, 65, rfl⟩
abbrev main_v45 : Ref sig .tc := ⟨.hbm, 66, rfl⟩
abbrev main_c_6 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  slices_S512x64_S256x64_0_0 : S512x64.Slices ![0, 0] S256x64
  slices_S512x64_S256x64_256_0 : S512x64.Slices ![256, 0] S256x64
  bcast_S2x1024x64_S2x1024x1x64_0_1_3 : S2x1024x64.BroadcastsInDim S2x1024x1x64 (![0, 1, 3] : Fin 3 → Fin S2x1024x1x64.rank)
  bcast_S2x1024x64_S2x1x1024x64_0_2_3 : S2x1024x64.BroadcastsInDim S2x1x1024x64 (![0, 2, 3] : Fin 3 → Fin S2x1x1024x64.rank)
  bcast_S2x1024x1x64_S2x1024x1024x64_0_1_2_3 : S2x1024x1x64.BroadcastsInDim S2x1024x1024x64 (![0, 1, 2, 3] : Fin 4 → Fin S2x1024x1024x64.rank)
  bcast_S2x1x1024x64_S2x1024x1024x64_0_1_2_3 : S2x1x1024x64.BroadcastsInDim S2x1024x1024x64 (![0, 1, 2, 3] : Fin 4 → Fin S2x1024x1024x64.rank)
  bcast_S64_S1x1x1x64_3 : S64.BroadcastsInDim S1x1x1x64 (![3] : Fin 1 → Fin S1x1x1x64.rank)
  bcast_S1x1x1x64_S2x1024x1024x64_0_1_2_3 : S1x1x1x64.BroadcastsInDim S2x1024x1024x64 (![0, 1, 2, 3] : Fin 4 → Fin S2x1024x1024x64.rank)
  reducesTo_S2x1024x1024x64_S2x1024x1024_d3 : S2x1024x1024x64.ReducesTo [3] S2x1024x1024
  h_S_ : 0 < S_.numel
  bcast_S2x1024x1024_S2x1024x1024x1_0_1_2 : S2x1024x1024.BroadcastsInDim S2x1024x1024x1 (![0, 1, 2] : Fin 3 → Fin S2x1024x1024x1.rank)
  bcast_S_S2x1024x1024x1 : S_.BroadcastsInDim S2x1024x1024x1 (![] : Fin 0 → Fin S2x1024x1024x1.rank)
  bcast_S2x1024x1024x1_S2x1024x1024x64_0_1_2_3 : S2x1024x1024x1.BroadcastsInDim S2x1024x1024x64 (![0, 1, 2, 3] : Fin 4 → Fin S2x1024x1024x64.rank)
  bcast_S_S2x1024x1024x64 : S_.BroadcastsInDim S2x1024x1024x64 (![] : Fin 0 → Fin S2x1024x1024x64.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S1024x1024x64_S1x1024x1024x64_1_2_3 : S1024x1024x64.BroadcastsInDim S1x1024x1024x64 (![1, 2, 3] : Fin 3 → Fin S1x1024x1024x64.rank)
  bcast_S1x1024x1024x64_S2x1024x1024x64_0_1_2_3 : S1x1024x1024x64.BroadcastsInDim S2x1024x1024x64 (![0, 1, 2, 3] : Fin 4 → Fin S2x1024x1024x64.rank)
  dot_S2x1024x256_S256x64_S2x1024x64_2_0_01_1_n_n_wf : DotDims.WF S2x1024x256 S256x64 S2x1024x64 [2] [0] [0, 1] [1] [] []
  gather_S65x64_S1024x1024x1_S1024x1024x64_2_0_n_n_0_2_164_wf : GatherDims.WF S65x64 S1024x1024x1 S1024x1024x64 [2] [0] [] [0] [] 2 ![1, 64]

variable [Facts₀]

def dot_S2x1024x256_S256x64_S2x1024x64_2_0_01_1_n_n : DotDims S2x1024x256 S256x64 S2x1024x64 where
  lhsContracting := [2]
  rhsContracting := [0]
  lhsNonContracting := [0, 1]
  rhsNonContracting := [1]
  lhsBatch := []
  rhsBatch := []
  wf := dot_S2x1024x256_S256x64_S2x1024x64_2_0_01_1_n_n_wf
def gather_S65x64_S1024x1024x1_S1024x1024x64_2_0_n_n_0_2_164 : GatherDims S65x64 S1024x1024x1 S1024x1024x64 where
  offsetDims := [2]
  collapsedSliceDims := [0]
  operandBatchingDims := []
  startIndicesBatchingDims := []
  startIndexMap := [0]
  indexVectorDim := 2
  sliceSizes := ![1, 64]
  wf := gather_S65x64_S1024x1024x1_S1024x1024x64_2_0_n_n_0_2_164_wf

class Facts : Prop extends Facts₀ where

variable [Facts]
-- ==== Proof.KernelRun.lean ====
/-
  The idealized kernel's run with its result array named.

  The program is two pipelined regions after two host slices.  Its frame run threads the contents of every buffer
  through the three segments; the contents at the end are known by name at every unscoped buffer, so the same run also
  says what the result buffer holds: the array that the second region's write-backs leave, `arrAt 6` of that region's
  proof data after all of its 256 grid points, entered from the contents the first region leaves.  The argument arrays
  end as launched.  The statement is the frame theorem's with one more conjunct; the proof is the same launch of the
  segments, reading one more buffer of the final state.
-/
import proofs.«125408_j14164802142800_2_alg».proof.Proof.FrameKernelIdealP

set_option maxRecDepth 16384

noncomputable section

namespace Cert.KernelIdeal.RunP

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the array the
    second region's write-backs leave and every argument array as launched. -/
theorem run_named : θ_run defs (onTc (τ := τ) (main (F := F))) ⟨m, fun _ => 0, ρ⟩ (fun r => ∀ c : Dev nD,
      r.2.mem ((c.tc : Thread nD τ).loc main_v3) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunP

end
-- ==== Proof.Spec.lean ====
/-
  The function both programs compute, index by index, on the extended reals.

  From a stack of single representations s[b, n, d] (2 × 1024 × 256), a weight W (512 × 64) read as two halves of 256
  rows, a bias, a LayerNorm scale and shift over the 64 channels, and a table E (65 × 64) of relative-position rows:

    left(b, n, p)  = Σ_d s(b, n, d) · W(d, p)            right(b, n, p) = Σ_d s(b, n, d) · W(256 + d, p)
    x(b, i, j, p)  = left(b, i, p) + right(b, j, p) + bias(p)
    μ = (Σ_p x) / 64,   σ² = (Σ_p (x − μ)²) / 64,   y = (x − μ) · rsqrt(σ² + ε) · γ(p) + β(p)
    out(b, i, j, p) = max(y, 0) + E(clamp(j − i, −32, 32) + 32, p).

  The float literals 64, ε and 0 are kept as the f32 words the programs print; the same word on both sides is never
  evaluated.  Nothing here mentions a program.
-/
import Idealize.ShloMosaic.Lib.ValueIdx
import Idealize.ShloMosaic.PureOps.Ideal

noncomputable section

namespace Cert.PairSpec

open Idealize.ShloMosaic Idealize.ShloMosaic.ValueIdx

/-- One half of the linear layer: row `n` of batch `b` against the 256 rows of `W` that start at row `off`. -/
def proj (off : Nat) (hoff : off + 256 ≤ 512) (s : (⟨3, ![2, 1024, 256]⟩ : Shape).Idx → EReal)
    (W : (⟨2, ![512, 64]⟩ : Shape).Idx → EReal) : (⟨3, ![2, 1024, 64]⟩ : Shape).Idx → EReal :=
  fun j => ∑ d : Fin 256, s (ix3 (j 0) (j 1) d) * W (ix2 ⟨off + d.val, by have := d.isLt; omega⟩ (j 2))

/-- The pre-normalisation pair feature: the left row of `i`, the right row of `j`, the bias. -/
def pre (L R : (⟨3, ![2, 1024, 64]⟩ : Shape).Idx → EReal) (bias : (⟨1, ![64]⟩ : Shape).Idx → EReal)
    (b : Fin 2) (i j : Fin 1024) (p : Fin 64) : EReal :=
  L (ix3 b i p) + R (ix3 b j p) + bias (ix1 p)

/-- The mean of 64 channel values: their sum over the f32 word of 64. -/
def mean64 (f : Fin 64 → EReal) : EReal := Ideal.div (∑ q : Fin 64, f q) (Ideal.ofBits .f32 0x42800000#32)

/-- LayerNorm over the 64 channels, read at channel `p`: centre, scale by the reciprocal root of the variance plus ε,
    then the affine map. -/
def layerNorm (x : Fin 64 → EReal) (gamma beta : (⟨1, ![64]⟩ : Shape).Idx → EReal) (p : Fin 64) : EReal :=
  (x p - mean64 x) * Ideal.rsqrt (mean64 (fun q => (x q - mean64 x) * (x q - mean64 x)) + Ideal.ofBits .f32 0x3727C5AC#32)
    * gamma (ix1 p) + beta (ix1 p)

/-- The row of the relative-position table a pair (i, j) reads: j − i clamped to [−32, 32], shifted by 32. -/
def relRow (i j : Fin 1024) : Fin 65 :=
  ⟨(min 32 (max (-32) ((j.val : Int) - (i.val : Int))) + 32).toNat, by omega⟩

/-- The pair stage: LayerNorm, a clamp at zero, the relative-position row added. -/
def pair (L R : (⟨3, ![2, 1024, 64]⟩ : Shape).Idx → EReal) (bias gamma beta : (⟨1, ![64]⟩ : Shape).Idx → EReal)
    (E : (⟨2, ![65, 64]⟩ : Shape).Idx → EReal) : (⟨4, ![2, 1024, 1024, 64]⟩ : Shape).Idx → EReal :=
  fun y => max (layerNorm (pre L R bias (y 0) (y 1) (y 2)) gamma beta (y 3)) (Ideal.ofBits .f32 0x00000000#32)
    + E (ix2 (relRow (y 1) (y 2)) (y 3))

/-- The whole function of the six argument arrays. -/
def out (s : (⟨3, ![2, 1024, 256]⟩ : Shape).Idx → EReal) (W : (⟨2, ![512, 64]⟩ : Shape).Idx → EReal)
    (bias gamma beta : (⟨1, ![64]⟩ : Shape).Idx → EReal) (E : (⟨2, ![65, 64]⟩ : Shape).Idx → EReal) :
    (⟨4, ![2, 1024, 1024, 64]⟩ : Shape).Idx → EReal :=
  pair (proj 0 (by omega) s W) (proj 256 (by omega) s W) bias gamma beta E

end Cert.PairSpec

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.ProjValue.lean ====
/-
  What the first pipelined region leaves in its two output arrays, index by index.

  Each grid point b loads the block s[b] (1 × 1024 × 256) and the two halves of the weight (256 × 64 each, the rows
  0 … 255 and 256 … 511 of W), multiplies the block into a zero accumulator against each half, and stores the two
  1024 × 64 products as block b of the two output arrays.  So the left array is
  (b, n, p) ↦ Σ_d s(b, n, d) · W(d, p) and the right one (b, n, p) ↦ Σ_d s(b, n, d) · W(256 + d, p): the two halves of
  the linear layer as the specification names them.
-/
import proofs.«125408_j14164802142800_2_alg».proof.Proof.FrameKernelIdealP
import proofs.«125408_j14164802142800_2_alg».proof.Proof.Spec
import proofs.«125408_j14164802142800_2_alg».proof.Proof.LibProductAt
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.ProjValue

open Cert.KernelIdeal Cert.KernelIdeal.Gen Cert.KernelIdeal.GenP
open Idealize.ShloMosaic Idealize.ShloMosaic.TcCoe Idealize.SL.Sem Idealize.ShloMosaic.ValueIdx

/-! ## The product read at an index -/

/-- The product's dimension numbers keep the left factor's rows as the result's rows. -/
theorem dot_lhs_row (j : S1024x64.Idx) (q : dot_S1024x256_S256x64_S1024x64_1_0_0_1_n_n.contr.Idx) :
    (dot_S1024x256_S256x64_S1024x64_1_0_0_1_n_n.lhsIdx j q 0).val = (j 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl

/-- … and the right factor's columns as the result's columns. -/
theorem dot_rhs_col (j : S1024x64.Idx) (q : dot_S1024x256_S256x64_S1024x64_1_0_0_1_n_n.contr.Idx) :
    (dot_S1024x256_S256x64_S1024x64_1_0_0_1_n_n.rhsIdx j q 1).val = (j 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- The product of a 1024 × 256 matrix and a 256 × 64 one into the zero accumulator, at row n and column p. -/
theorem product_apply (l : FVec Ideal S1024x256 .bf16) (r : FVec Ideal S256x64 .bf16) (n : Fin 1024) (p : Fin 64) :
    matmul dot_S1024x256_S256x64_S1024x64_1_0_0_1_n_n none l r (constant (F := Ideal) S1024x64 .f32 0x00000000#32) (ix2 n p)
      = ∑ d : Fin 256, l (ix2 n d) * r (ix2 d p) := by
  refine (Ideal.matmul_constant_zero_apply dot_S1024x256_S256x64_S1024x64_1_0_0_1_n_n none l r (ix2 n p)).trans ?_
  refine (Cert.ProductAt.product_sum_eq dot_S1024x256_S256x64_S1024x64_1_0_0_1_n_n rfl rfl rfl rfl dot_lhs_row dot_rhs_col l r (ix2 n p)).trans ?_
  refine Finset.sum_congr rfl fun d _ => ?_
  have el : (Cert.ProductAt.at2 ((ix2 n p : S1024x64.Idx) 0).val (ValueIdx.idx2_lt0 _) d.val d.isLt : S1024x256.Idx) = ix2 n d :=
    funext fun a => by match a with | ⟨0, _⟩ => rfl | ⟨1, _⟩ => rfl
  have er : (Cert.ProductAt.at2 d.val d.isLt ((ix2 n p : S1024x64.Idx) 1).val (ValueIdx.idx2_lt1 _) : S256x64.Idx) = ix2 d p :=
    funext fun a => by match a with | ⟨0, _⟩ => rfl | ⟨1, _⟩ => rfl
  rw [el, er]

/-- The loaded block with its leading unit axis dropped (and the narrowing, the identity on the extended reals), at an
    index. -/
theorem block_rows_apply (x0 : Vec Ideal S1x1024x256 .f32) (n : Fin 1024) (d : Fin 256) :
    k0_pay1 x0 (ix2 n d) = x0 (ix3 0 n d) := by
  unfold k0_pay1
  refine (truncf_apply (ψ := .bf16) (shapeCast S1024x256 x0 shapeCasts_S1x1024x256_S1024x256) bitsLt_bf16_f32 (ix2 n d)).trans ?_
  refine shapeCast_apply x0 shapeCasts_S1x1024x256_S1024x256 (ix2 n d) (ix3 0 n d) ?_
  rw [Shape.rowMajor_val_two, Shape.rowMajor_val_three]
  show (0 * 1024 + n.val) * 256 + d.val = n.val * 256 + d.val
  omega

/-- The loaded half of the weight, cast to its own shape and narrowed, at an index: itself. -/
theorem weight_apply (x1 : Vec Ideal S256x64 .f32) (d : Fin 256) (p : Fin 64) :
    (truncf .bf16 (shapeCast S256x64 x1 shapeCasts_S256x64_S256x64) bitsLt_bf16_f32 : FVec Ideal S256x64 .bf16) (ix2 d p) = x1 (ix2 d p) :=
  (truncf_apply (ψ := .bf16) (shapeCast S256x64 x1 shapeCasts_S256x64_S256x64) bitsLt_bf16_f32 (ix2 d p)).trans
    (shapeCast_apply x1 shapeCasts_S256x64_S256x64 (ix2 d p) (ix2 d p) rfl)

/-- What the body stores into the left output window, at an index: row n of the loaded block against column p of the
    loaded half of the weight. -/
theorem left_payload_apply (x0 : Vec Ideal S1x1024x256 .f32) (x1 : Vec Ideal S256x64 .f32) (z : Fin 1) (n : Fin 1024) (p : Fin 64) :
    k0_pay2 x0 x1 (ix3 z n p) = ∑ d : Fin 256, x0 (ix3 0 n d) * x1 (ix2 d p) := by
  unfold k0_pay2
  refine (shapeCast_apply _ _ (ix3 z n p) (ix2 n p) ?_).trans ?_
  · rw [Shape.rowMajor_val_two, Shape.rowMajor_val_three]
    show n.val * 64 + p.val = (z.val * 1024 + n.val) * 64 + p.val
    have := z.isLt; omega
  refine (product_apply _ _ n p).trans ?_
  exact Finset.sum_congr rfl fun d _ => congrArg₂ (· * ·) (block_rows_apply x0 n d) (weight_apply x1 d p)

/-- The same for the right output window, with the other half of the weight. -/
theorem right_payload_apply (x0 : Vec Ideal S1x1024x256 .f32) (x2 : Vec Ideal S256x64 .f32) (z : Fin 1) (n : Fin 1024) (p : Fin 64) :
    k0_pay3 x0 x2 (ix3 z n p) = ∑ d : Fin 256, x0 (ix3 0 n d) * x2 (ix2 d p) := by
  unfold k0_pay3
  refine (shapeCast_apply _ _ (ix3 z n p) (ix2 n p) ?_).trans ?_
  · rw [Shape.rowMajor_val_two, Shape.rowMajor_val_three]
    show n.val * 64 + p.val = (z.val * 1024 + n.val) * 64 + p.val
    have := z.isLt; omega
  refine (product_apply _ _ n p).trans ?_
  exact Finset.sum_congr rfl fun d _ => congrArg₂ (· * ·) (block_rows_apply x0 n d) (weight_apply x2 d p)

/-! ## One grid point's stored blocks as blocks of the two halves of the linear layer -/

/-- A point's left payload is the block of the specification's left half that its batch index names, given that the
    loaded block is batch b of the representations and the loaded weight its first 256 rows. -/
theorem left_point (A : S2x1024x256.Idx → EReal) (W : S512x64.Idx → EReal)
    (x0 : Vec Ideal S1x1024x256 .f32) (x1 : Vec Ideal S256x64 .f32) (b : Fin 2)
    (h0 : ∀ (n : Fin 1024) (d : Fin 256), x0 (ix3 0 n d) = A (ix3 b n d))
    (h1 : ∀ (d : Fin 256) (p : Fin 64), x1 (ix2 d p) = W (ix2 ⟨0 + d.val, by have := d.isLt; omega⟩ p))
    (y : S1x1024x64.Idx) (i : S2x1024x64.Idx) (hi0 : (i 0).val = b.val) (hi1 : (i 1).val = (y 1).val) (hi2 : (i 2).val = (y 2).val) :
    k0_pay2 x0 x1 y = Cert.PairSpec.proj 0 (by omega) A W i := by
  obtain ⟨z, n, p, rfl⟩ : ∃ (z : Fin 1) (n : Fin 1024) (p : Fin 64), y = ix3 z n p := ⟨y 0, y 1, y 2, eq_ix3 y⟩
  obtain ⟨b', n', p', rfl⟩ : ∃ (b' : Fin 2) (n' : Fin 1024) (p' : Fin 64), i = ix3 b' n' p' := ⟨i 0, i 1, i 2, eq_ix3 i⟩
  obtain rfl : b' = b := Fin.ext hi0
  obtain rfl : n' = n := Fin.ext hi1
  obtain rfl : p' = p := Fin.ext hi2
  refine (left_payload_apply x0 x1 z n' p').trans ?_
  unfold Cert.PairSpec.proj
  exact Finset.sum_congr rfl fun d _ => congrArg₂ (· * ·) (h0 n' d) (h1 d p')

/-- The same for the right payload and the rows 256 … 511 of the weight. -/
theorem right_point (A : S2x1024x256.Idx → EReal) (W : S512x64.Idx → EReal)
    (x0 : Vec Ideal S1x1024x256 .f32) (x2 : Vec Ideal S256x64 .f32) (b : Fin 2)
    (h0 : ∀ (n : Fin 1024) (d : Fin 256), x0 (ix3 0 n d) = A (ix3 b n d))
    (h2 : ∀ (d : Fin 256) (p : Fin 64), x2 (ix2 d p) = W (ix2 ⟨256 + d.val, by have := d.isLt; omega⟩ p))
    (y : S1x1024x64.Idx) (i : S2x1024x64.Idx) (hi0 : (i 0).val = b.val) (hi1 : (i 1).val = (y 1).val) (hi2 : (i 2).val = (y 2).val) :
    k0_pay3 x0 x2 y = Cert.PairSpec.proj 256 (by omega) A W i := by
  obtain ⟨z, n, p, rfl⟩ : ∃ (z : Fin 1) (n : Fin 1024) (p : Fin 64), y = ix3 z n p := ⟨y 0, y 1, y 2, eq_ix3 y⟩
  obtain ⟨b', n', p', rfl⟩ : ∃ (b' : Fin 2) (n' : Fin 1024) (p' : Fin 64), i = ix3 b' n' p' := ⟨i 0, i 1, i 2, eq_ix3 i⟩
  obtain rfl : b' = b := Fin.ext hi0
  obtain rfl : n' = n := Fin.ext hi1
  obtain rfl : p' = p := Fin.ext hi2
  refine (right_payload_apply x0 x2 z n' p').trans ?_
  unfold Cert.PairSpec.proj
  exact Finset.sum_congr rfl fun d _ => congrArg₂ (· * ·) (h0 n' d) (h2 d p')

/-! ## The region's entry contents -/

variable (m : (ℓ : Loc nD τ sig) → Buf (Elt Ideal) ℓ) (ρ : Dev nD → PrngReg)

/-- No host operation before the region writes the representations: the region finds them as launched. -/
theorem entry_reps (c : Dev nD) : V1 m ρ c main_arg0 = m ((c.tc : Thread nD τ).loc main_arg0) :=
  (StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))).trans rfl

/-- The first host slice: the region finds rows 0 … 255 of the weight in its second window's array. -/
theorem entry_upper (c : Dev nD) :
    (V1 m ρ c main_v0 : S256x64.Idx → EReal)
      = extractStridedSlice S256x64 ![0, 0] (m ((c.tc : Thread nD τ).loc main_arg1)) slices_S512x64_S256x64_0_0 := by
  show StableHlo.after hostOps0 _ (Proc.devRef .tc main_v0) = _
  after_results

/-- The second host slice: rows 256 … 511 of the weight in its third window's array. -/
theorem entry_lower (c : Dev nD) :
    (V1 m ρ c main_v1 : S256x64.Idx → EReal)
      = extractStridedSlice S256x64 ![256, 0] (m ((c.tc : Thread nD τ).loc main_arg1)) slices_S512x64_S256x64_256_0 := by
  show StableHlo.after hostOps0 _ (Proc.devRef .tc main_v1) = _
  after_results

/-- The two slices read at an index. -/
theorem entry_upper_apply (c : Dev nD) (d : Fin 256) (p : Fin 64) :
    (V1 m ρ c main_v0 : S256x64.Idx → EReal) (ix2 d p)
      = (m ((c.tc : Thread nD τ).loc main_arg1) : S512x64.Idx → EReal) (ix2 ⟨0 + d.val, by have := d.isLt; omega⟩ p) := by
  rw [entry_upper]
  refine extractStridedSlice_apply _ _ _ (ix2 d p) _ fun a => ?_
  match a with
  | ⟨0, _⟩ => rfl
  | ⟨1, _⟩ => show p.val = 0 + p.val; omega

theorem entry_lower_apply (c : Dev nD) (d : Fin 256) (p : Fin 64) :
    (V1 m ρ c main_v1 : S256x64.Idx → EReal) (ix2 d p)
      = (m ((c.tc : Thread nD τ).loc main_arg1) : S512x64.Idx → EReal) (ix2 ⟨256 + d.val, by have := d.isLt; omega⟩ p) := by
  rw [entry_lower]
  refine extractStridedSlice_apply _ _ _ (ix2 d p) _ fun a => ?_
  match a with
  | ⟨0, _⟩ => rfl
  | ⟨1, _⟩ => show p.val = 0 + p.val; omega

/-! ## The blocks of the five windows -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the two grid points: the representations' window and the two output windows
    move along the batch axis with the point; the two weight windows stay at block (0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The batch a grid point works on. -/
def batchOf (t : Fin cfg0.N) : Fin 2 := Fin.cast (N_0 : cfg0.N = 2) t

/-- The representations' block at point t is batch t of the launched array. -/
theorem reps_block_apply (c : Dev nD) (t : Fin cfg0.N) (n : Fin 1024) (d : Fin 256) :
    (iblk0 (V1 m ρ) c 0 t : Vec Ideal S1x1024x256 .f32) (ix3 0 n d)
      = (m ((c.tc : Thread nD τ).loc main_arg0) : S2x1024x256.Idx → EReal) (ix3 (batchOf t) n d) := by
  obtain ⟨e0, e1, e2, -⟩ := index_facts t
  unfold iblk0
  rw [View.read_apply]
  show V1 m ρ c main_arg0 _ = _
  rw [entry_reps]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 256 + 1 * d.val = d.val; omega

/-- The second window's block at every point is rows 0 … 255 of the launched weight. -/
theorem upper_block_apply (c : Dev nD) (t : Fin cfg0.N) (d : Fin 256) (p : Fin 64) :
    (iblk0 (V1 m ρ) c 1 t : Vec Ideal S256x64 .f32) (ix2 d p)
      = (m ((c.tc : Thread nD τ).loc main_arg1) : S512x64.Idx → EReal) (ix2 ⟨0 + d.val, by have := d.isLt; omega⟩ p) := by
  obtain ⟨-, -, -, e0, e1, -⟩ := index_facts t
  refine Eq.trans ?_ (entry_upper_apply m ρ c d p)
  unfold iblk0
  rw [View.read_apply]
  show V1 m ρ c main_v0 _ = V1 m ρ c main_v0 _
  refine congrArg _ (funext fun a => Fin.ext ?_)
  match a with
  | ⟨0, _⟩ => show win0_1.index t (0 : Fin 2) * 256 + 1 * d.val = d.val; omega
  | ⟨1, _⟩ => show win0_1.index t (1 : Fin 2) * 64 + 1 * p.val = p.val; omega

/-- The third window's block at every point is rows 256 … 511 of the launched weight. -/
theorem lower_block_apply (c : Dev nD) (t : Fin cfg0.N) (d : Fin 256) (p : Fin 64) :
    (iblk0 (V1 m ρ) c 2 t : Vec Ideal S256x64 .f32) (ix2 d p)
      = (m ((c.tc : Thread nD τ).loc main_arg1) : S512x64.Idx → EReal) (ix2 ⟨256 + d.val, by have := d.isLt; omega⟩ p) := by
  obtain ⟨-, -, -, -, -, e0, e1, -⟩ := index_facts t
  refine Eq.trans ?_ (entry_lower_apply m ρ c d p)
  unfold iblk0
  rw [View.read_apply]
  show V1 m ρ c main_v1 _ = V1 m ρ c main_v1 _
  refine congrArg _ (funext fun a => Fin.ext ?_)
  match a with
  | ⟨0, _⟩ => show win0_2.index t (0 : Fin 2) * 256 + 1 * d.val = d.val; omega
  | ⟨1, _⟩ => show win0_2.index t (1 : Fin 2) * 64 + 1 * p.val = p.val; omega

/-! ## What each point writes back, the cover, the two arrays -/

/-- What point t writes back to the left array is block t of the specification's left half. -/
theorem left_flushed (c : Dev nD) (t : Fin cfg0.N) :
    (dat0 (V1 m ρ) c).flushed 3 t
      = ((cfg0.win 3).blk t).view.read (Elt Ideal)
          (Cert.PairSpec.proj 0 (by omega) (m ((c.tc : Thread nD τ).loc main_arg0)) (m ((c.tc : Thread nD τ).loc main_arg1))) := by
  show (cfg0.win 3).cut (grid0.coords t) ((dat0 (V1 m ρ) c).after 3 t) = _
  rw [after0_3]
  unfold out0_3
  rw [View.canon_unit_zero zeros3]
  simp only [View.ld_unit_zero (S := S1x1024x256) zeros3, View.ld_unit_zero (S := S256x64) zeros2]
  obtain ⟨-, -, -, -, -, -, -, e0, e1, e2, -⟩ := index_facts t
  funext y
  show k0_pay2 (iblk0 (V1 m ρ) c 0 t) (iblk0 (V1 m ρ) c 1 t) y
    = Cert.PairSpec.proj 0 (by omega) (m ((c.tc : Thread nD τ).loc main_arg0)) (m ((c.tc : Thread nD τ).loc main_arg1)) (((cfg0.win 3).blk t).view.emb y)
  have hy : (y 0).val < 1 := (y 0).isLt
  refine left_point _ _ _ _ (batchOf t) (fun n d => reps_block_apply m ρ c t n d) (fun d p => upper_block_apply m ρ c t d p) y _ ?_ ?_ ?_
  · show win0_3.index t (0 : Fin 3) * 1 + 1 * (y 0).val = t.val; omega
  · show win0_3.index t (1 : Fin 3) * 1024 + 1 * (y 1).val = (y 1).val; omega
  · show win0_3.index t (2 : Fin 3) * 64 + 1 * (y 2).val = (y 2).val; omega

/-- What point t writes back to the right array is block t of the specification's right half. -/
theorem right_flushed (c : Dev nD) (t : Fin cfg0.N) :
    (dat0 (V1 m ρ) c).flushed 4 t
      = ((cfg0.win 4).blk t).view.read (Elt Ideal)
          (Cert.PairSpec.proj 256 (by omega) (m ((c.tc : Thread nD τ).loc main_arg0)) (m ((c.tc : Thread nD τ).loc main_arg1))) := by
  show (cfg0.win 4).cut (grid0.coords t) ((dat0 (V1 m ρ) c).after 4 t) = _
  rw [after0_4]
  unfold out0_4
  rw [View.canon_unit_zero zeros3]
  simp only [View.ld_unit_zero (S := S1x1024x256) zeros3, View.ld_unit_zero (S := S256x64) zeros2]
  obtain ⟨-, -, -, -, -, -, -, -, -, -, e0, e1, e2⟩ := index_facts t
  funext y
  show k0_pay3 (iblk0 (V1 m ρ) c 0 t) (iblk0 (V1 m ρ) c 2 t) y
    = Cert.PairSpec.proj 256 (by omega) (m ((c.tc : Thread nD τ).loc main_arg0)) (m ((c.tc : Thread nD τ).loc main_arg1)) (((cfg0.win 4).blk t).view.emb y)
  have hy : (y 0).val < 1 := (y 0).isLt
  refine right_point _ _ _ _ (batchOf t) (fun n d => reps_block_apply m ρ c t n d) (fun d p => lower_block_apply m ρ c t d p) y _ ?_ ?_ ?_
  · show win0_4.index t (0 : Fin 3) * 1 + 1 * (y 0).val = t.val; omega
  · show win0_4.index t (1 : Fin 3) * 1024 + 1 * (y 1).val = (y 1).val; omega
  · show win0_4.index t (2 : Fin 3) * 64 + 1 * (y 2).val = (y 2).val; omega

/-- An index of the left array is in point t's block iff each coordinate is in the block's range on its axis. -/
theorem left_mem_blk (t : Fin cfg0.N) (i : S2x1024x64.Idx) :
    i ∈ ((cfg0.win 3).blk t).view.set
      ↔ ∀ a : Fin 3, win0_3.index t a * S1x1024x64.size a ≤ (i a).val ∧ (i a).val < win0_3.index t a * S1x1024x64.size a + S1x1024x64.size a := by
  show i ∈ ((View.whole main_v2_0).slice (win0_3.rect t)).set ↔ _
  rw [View.set_slice_whole, Rect.mem_set_unit]
  exact Iff.rfl

theorem right_mem_blk (t : Fin cfg0.N) (i : S2x1024x64.Idx) :
    i ∈ ((cfg0.win 4).blk t).view.set
      ↔ ∀ a : Fin 3, win0_4.index t a * S1x1024x64.size a ≤ (i a).val ∧ (i a).val < win0_4.index t a * S1x1024x64.size a + S1x1024x64.size a := by
  show i ∈ ((View.whole main_v2_1).slice (win0_4.rect t)).set ↔ _
  rw [View.set_slice_whole, Rect.mem_set_unit]
  exact Iff.rfl

/-- The point that works on batch b. -/
def pointOf (b : Fin 2) : Fin cfg0.N := Fin.cast (N_0 : cfg0.N = 2).symm b

/-- Every index (b, n, p) of the left array is in the block of the point that works on batch b. -/
theorem left_cover (i : S2x1024x64.Idx) :
    ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 64 := (i 2).isLt
  refine ⟨pointOf ⟨(i 0).val, hi0⟩, flush0_3 _, ?_⟩
  obtain ⟨-, -, -, -, -, -, -, e0, e1, e2, -⟩ := index_facts (pointOf ⟨(i 0).val, hi0⟩)
  have ht : (pointOf ⟨(i 0).val, hi0⟩).val = (i 0).val := rfl
  rw [left_mem_blk]
  intro a
  match a with
  | ⟨0, _⟩ => show win0_3.index (pointOf ⟨(i 0).val, hi0⟩) (0 : Fin 3) * 1 ≤ (i 0).val ∧ (i 0).val < win0_3.index (pointOf ⟨(i 0).val, hi0⟩) (0 : Fin 3) * 1 + 1; omega
  | ⟨1, _⟩ => show win0_3.index (pointOf ⟨(i 0).val, hi0⟩) (1 : Fin 3) * 1024 ≤ (i 1).val ∧ (i 1).val < win0_3.index (pointOf ⟨(i 0).val, hi0⟩) (1 : Fin 3) * 1024 + 1024; omega
  | ⟨2, _⟩ => show win0_3.index (pointOf ⟨(i 0).val, hi0⟩) (2 : Fin 3) * 64 ≤ (i 2).val ∧ (i 2).val < win0_3.index (pointOf ⟨(i 0).val, hi0⟩) (2 : Fin 3) * 64 + 64; omega

theorem right_cover (i : S2x1024x64.Idx) :
    ∃ t : Fin cfg0.N, (cfg0.win 4).flush t = true ∧ i ∈ ((cfg0.win 4).blk t).view.set := by
  have hi0 : (i 0).val < 2 := (i 0).isLt
  have hi1 : (i 1).val < 1024 := (i 1).isLt
  have hi2 : (i 2).val < 64 := (i 2).isLt
  refine ⟨pointOf ⟨(i 0).val, hi0⟩, flush0_4 _, ?_⟩
  obtain ⟨-, -, -, -, -, -, -, -, -, -, e0, e1, e2⟩ := index_facts (pointOf ⟨(i 0).val, hi0⟩)
  have ht : (pointOf ⟨(i 0).val, hi0⟩).val = (i 0).val := rfl
  rw [right_mem_blk]
  intro a
  match a with
  | ⟨0, _⟩ => show win0_4.index (pointOf ⟨(i 0).val, hi0⟩) (0 : Fin 3) * 1 ≤ (i 0).val ∧ (i 0).val < win0_4.index (pointOf ⟨(i 0).val, hi0⟩) (0 : Fin 3) * 1 + 1; omega
  | ⟨1, _⟩ => show win0_4.index (pointOf ⟨(i 0).val, hi0⟩) (1 : Fin 3) * 1024 ≤ (i 1).val ∧ (i 1).val < win0_4.index (pointOf ⟨(i 0).val, hi0⟩) (1 : Fin 3) * 1024 + 1024; omega
  | ⟨2, _⟩ => show win0_4.index (pointOf ⟨(i 0).val, hi0⟩) (2 : Fin 3) * 64 ≤ (i 2).val ∧ (i 2).val < win0_4.index (pointOf ⟨(i 0).val, hi0⟩) (2 : Fin 3) * 64 + 64; omega

/-- THE LEFT ARRAY after the region: the first half of the linear layer of the launched arrays. -/
theorem left_array (c : Dev nD) :
    (dat0 (V1 m ρ) c).arrAt 3 cfg0.N
      = Cert.PairSpec.proj 0 (by omega) (m ((c.tc : Thread nD τ).loc main_arg0)) (m ((c.tc : Thread nD τ).loc main_arg1)) :=
  (dat0 (V1 m ρ) c).arrAt_eq_of_cover 3 _ (fun t _ => left_flushed m ρ c t) left_cover

/-- THE RIGHT ARRAY after the region: the second half. -/
theorem right_array (c : Dev nD) :
    (dat0 (V1 m ρ) c).arrAt 4 cfg0.N
      = Cert.PairSpec.proj 256 (by omega) (m ((c.tc : Thread nD τ).loc main_arg0)) (m ((c.tc : Thread nD τ).loc main_arg1)) :=
  (dat0 (V1 m ρ) c).arrAt_eq_of_cover 4 _ (fun t _ => right_flushed m ρ c t) right_cover

end Cert.KernelIdeal.ProjValue

end
-- ==== Proof.RelWord.lean ====
/-
  The relative-position row as the 32-bit word both programs compute.

  For positions i, j below 1024 both programs form, in 32-bit two's-complement arithmetic, the word of j minus the word
  of i, clamp it to [−32, 32] by a signed maximum against −32 and a signed minimum against 32, and add 32.  No step
  wraps: the difference lies strictly between −1024 and 1024, so read as a signed integer the word is the integer
  clamp(j − i, −32, 32) + 32, which lies in [0, 64]; read unsigned it is the same number, the row `relRow i j`.
-/
import proofs.«125408_j14164802142800_2_alg».proof.Proof.Spec
import Idealize.ShloMosaic.PureOps

namespace Cert.PairSpec

open Idealize.ShloMosaic

/-- The word: (word of j − word of i), signed-clamped to [−32, 32], plus 32. -/
def relWord (i j : Nat) : BitVec 32 :=
  IntOp.addi (IntOp.minsi 32#32 (IntOp.maxsi 4294967264#32 (IntOp.subi (BitVec.ofNat 32 j) (BitVec.ofNat 32 i)))) 32#32

/-- The difference of two position words, read signed, is the integer difference. -/
theorem sub_toInt (i j : Nat) (hi : i < 1024) (hj : j < 1024) :
    (BitVec.ofNat 32 j - BitVec.ofNat 32 i).toInt = (j : Int) - (i : Int) := by
  rw [BitVec.toInt_eq_toNat_cond]
  simp only [BitVec.toNat_sub, BitVec.toNat_ofNat]
  omega

/-- A signed maximum, read signed, is the maximum of the two signed readings. -/
theorem maxsi_toInt (x y : BitVec 32) : (IntOp.maxsi x y).toInt = max x.toInt y.toInt := by
  unfold IntOp.maxsi; simp only [BitVec.slt]
  split <;> rename_i h <;> simp only [decide_eq_true_eq] at h <;> omega

/-- A signed minimum, read signed, is the minimum of the two signed readings. -/
theorem minsi_toInt (x y : BitVec 32) : (IntOp.minsi x y).toInt = min x.toInt y.toInt := by
  unfold IntOp.minsi; simp only [BitVec.slt]
  split <;> rename_i h <;> simp only [decide_eq_true_eq] at h <;> omega

/-- Adding 32 to a word whose signed reading is in [−32, 32] does not wrap. -/
theorem add32_toInt (w : BitVec 32) (h0 : -32 ≤ w.toInt) (h1 : w.toInt ≤ 32) :
    (IntOp.addi w 32#32).toInt = w.toInt + 32 := by
  unfold IntOp.addi
  rw [BitVec.toInt_add, show (32#32 : BitVec 32).toInt = 32 from by decide, Int.bmod_def]
  omega

/-- Read signed, the word is the row number. -/
theorem relWord_toInt (i j : Fin 1024) : (relWord i.val j.val).toInt = ((relRow i j).val : Int) := by
  have hd := sub_toInt i.val j.val i.isLt j.isLt
  have hi := i.isLt; have hj := j.isLt
  unfold relWord relRow IntOp.subi
  have e1 : (4294967264#32 : BitVec 32).toInt = -32 := by decide
  have e2 : (32#32 : BitVec 32).toInt = 32 := by decide
  have hm : (IntOp.minsi 32#32 (IntOp.maxsi 4294967264#32 (BitVec.ofNat 32 j.val - BitVec.ofNat 32 i.val))).toInt
      = min 32 (max (-32) ((j.val : Int) - (i.val : Int))) := by
    rw [minsi_toInt, maxsi_toInt, e1, e2, hd]
  rw [add32_toInt _ (by rw [hm]; omega) (by rw [hm]; omega), hm]
  show _ = ((min 32 (max (-32) ((j.val : Int) - (i.val : Int))) + 32).toNat : Int)
  omega

/-- Read unsigned, the word is the row number too. -/
theorem relWord_toNat (i j : Fin 1024) : (relWord i.val j.val).toNat = (relRow i j).val := by
  have h := relWord_toInt i j
  have hlt := (relRow i j).isLt
  rw [BitVec.toInt_eq_toNat_cond] at h
  have := (relWord i.val j.val).isLt
  omega

/-- The word is not negative: a signed comparison against zero fails. -/
theorem relWord_not_slt_zero (i j : Fin 1024) : (relWord i.val j.val).slt 0#32 = false := by
  have h := relWord_toInt i j
  simp only [BitVec.slt, show (0#32 : BitVec 32).toInt = 0 from by decide, decide_eq_false_iff_not]
  omega

end Cert.PairSpec
-- ==== Proof.LibPairAxes.lean ====
/-
  Layout operations on four-axis arrays, read at an index.

  A pairwise feature map [n, a, b, c] is assembled from rows indexed by the first position (an [n, a, c] array given a unit
  third axis and repeated along it), rows indexed by the second position (an [n, b, c] array given a unit second axis and
  repeated along it), per-channel vectors [c] (given three unit axes and repeated everywhere) and per-pair scalars
  [n, a, b] (given a unit last axis and repeated along it).  Each lemma says which entry of the operand a given entry of
  the result is: a shape cast keeps the row-major position, a broadcast reads coordinate 0 on a unit axis.  The sum over
  the last axis of an [n, a, b, c] array read at (z, i, j) is the sum over k of the entries (z, i, j, k).  A matrix
  [n, c] whose rows are the pairs (i, j) in row-major order, r = i·b + j, recast to [1, a, b, c], reads row r.
  General: extents are variables; nothing here mentions a program.
-/
import Idealize.ShloMosaic.Lib.Pipeline.Value
import Idealize.ShloMosaic.Lib.ValueIdx
import Idealize.ShloMosaic.PureOps.Ideal.Laws

namespace Cert.LibPairAxes

open Idealize.ShloMosaic Idealize.ShloMosaic.ValueIdx

variable {α : Type}

/-- Rows of the first position: [n, a, c] recast to [n, a, 1, c] and repeated along the third axis to [n, a, b, c]
    reads, at (z, i, j, k), the operand at (z, i, k). -/
theorem rows_first_apply {n a b c : ℕ} (x : (⟨3, ![n, a, c]⟩ : Shape).Idx → α)
    (h1 : (⟨3, ![n, a, c]⟩ : Shape).ShapeCasts ⟨4, ![n, a, 1, c]⟩)
    (h2 : (⟨4, ![n, a, 1, c]⟩ : Shape).Broadcasts ⟨4, ![n, a, b, c]⟩) (z : Fin n) (i : Fin a) (j : Fin b) (k : Fin c) :
    broadcastTo ⟨4, ![n, a, b, c]⟩ (shapeCast ⟨4, ![n, a, 1, c]⟩ x h1) h2 (ix4 z i j k) = x (ix3 z i k) := by
  refine (broadcastTo_apply _ h2 (ix4 z i j k) (ix4 z i (0 : Fin 1) k) fun ax => ?_).trans ?_
  · match ax with
    | ⟨0, _⟩ =>
      show z.val = if n = 1 then 0 else z.val
      split
      · have := z.isLt; omega
      · rfl
    | ⟨1, _⟩ =>
      show i.val = if a = 1 then 0 else i.val
      split
      · have := i.isLt; omega
      · rfl
    | ⟨2, _⟩ => rfl
    | ⟨3, _⟩ =>
      show k.val = if c = 1 then 0 else k.val
      split
      · have := k.isLt; omega
      · rfl
  · refine shapeCast_apply x h1 _ _ ?_
    rw [Shape.rowMajor_val_three, Shape.rowMajor_val_four]
    show (z.val * a + i.val) * c + k.val = ((z.val * a + i.val) * 1 + 0) * c + k.val
    rw [Nat.mul_one, Nat.add_zero]

/-- Rows of the second position: [n, b, c] recast to [n, 1, b, c] and repeated along the second axis to [n, a, b, c]
    reads, at (z, i, j, k), the operand at (z, j, k). -/
theorem rows_second_apply {n a b c : ℕ} (x : (⟨3, ![n, b, c]⟩ : Shape).Idx → α)
    (h1 : (⟨3, ![n, b, c]⟩ : Shape).ShapeCasts ⟨4, ![n, 1, b, c]⟩)
    (h2 : (⟨4, ![n, 1, b, c]⟩ : Shape).Broadcasts ⟨4, ![n, a, b, c]⟩) (z : Fin n) (i : Fin a) (j : Fin b) (k : Fin c) :
    broadcastTo ⟨4, ![n, a, b, c]⟩ (shapeCast ⟨4, ![n, 1, b, c]⟩ x h1) h2 (ix4 z i j k) = x (ix3 z j k) := by
  refine (broadcastTo_apply _ h2 (ix4 z i j k) (ix4 z (0 : Fin 1) j k) fun ax => ?_).trans ?_
  · match ax with
    | ⟨0, _⟩ =>
      show z.val = if n = 1 then 0 else z.val
      split
      · have := z.isLt; omega
      · rfl
    | ⟨1, _⟩ => rfl
    | ⟨2, _⟩ =>
      show j.val = if b = 1 then 0 else j.val
      split
      · have := j.isLt; omega
      · rfl
    | ⟨3, _⟩ =>
      show k.val = if c = 1 then 0 else k.val
      split
      · have := k.isLt; omega
      · rfl
  · refine shapeCast_apply x h1 _ _ ?_
    rw [Shape.rowMajor_val_three, Shape.rowMajor_val_four]
    show (z.val * b + j.val) * c + k.val = ((z.val * 1 + 0) * b + j.val) * c + k.val
    rw [Nat.mul_one, Nat.add_zero]

/-- A per-channel vector: [c] recast to [1, 1, 1, c] and repeated to [n, a, b, c] reads, at (z, i, j, k), entry k. -/
theorem channel_apply {n a b c : ℕ} (x : (⟨1, ![c]⟩ : Shape).Idx → α)
    (h1 : (⟨1, ![c]⟩ : Shape).ShapeCasts ⟨4, ![1, 1, 1, c]⟩)
    (h2 : (⟨4, ![1, 1, 1, c]⟩ : Shape).Broadcasts ⟨4, ![n, a, b, c]⟩) (z : Fin n) (i : Fin a) (j : Fin b) (k : Fin c) :
    broadcastTo ⟨4, ![n, a, b, c]⟩ (shapeCast ⟨4, ![1, 1, 1, c]⟩ x h1) h2 (ix4 z i j k) = x (ix1 k) := by
  refine (broadcastTo_apply _ h2 (ix4 z i j k) (ix4 (0 : Fin 1) (0 : Fin 1) (0 : Fin 1) k) fun ax => ?_).trans ?_
  · match ax with
    | ⟨0, _⟩ => rfl
    | ⟨1, _⟩ => rfl
    | ⟨2, _⟩ => rfl
    | ⟨3, _⟩ =>
      show k.val = if c = 1 then 0 else k.val
      split
      · have := k.isLt; omega
      · rfl
  · refine shapeCast_apply x h1 _ _ ?_
    rw [Shape.rowMajor_val_one, Shape.rowMajor_val_four]
    show k.val = ((0 * 1 + 0) * 1 + 0) * c + k.val
    omega

/-- A per-pair scalar: [n, a, b, 1] repeated along the last axis to [n, a, b, c] reads, at (z, i, j, k), the operand at
    (z, i, j, 0). -/
theorem pair_scalar_apply {n a b c : ℕ} (x : (⟨4, ![n, a, b, 1]⟩ : Shape).Idx → α)
    (h : (⟨4, ![n, a, b, 1]⟩ : Shape).Broadcasts ⟨4, ![n, a, b, c]⟩) (z : Fin n) (i : Fin a) (j : Fin b) (k : Fin c) :
    broadcastTo ⟨4, ![n, a, b, c]⟩ x h (ix4 z i j k) = x (ix4 z i j (0 : Fin 1)) := by
  refine broadcastTo_apply _ h (ix4 z i j k) (ix4 z i j (0 : Fin 1)) fun ax => ?_
  match ax with
  | ⟨0, _⟩ =>
    show z.val = if n = 1 then 0 else z.val
    split
    · have := z.isLt; omega
    · rfl
  | ⟨1, _⟩ =>
    show i.val = if a = 1 then 0 else i.val
    split
    · have := i.isLt; omega
    · rfl
  | ⟨2, _⟩ =>
    show j.val = if b = 1 then 0 else j.val
    split
    · have := j.isLt; omega
    · rfl
  | ⟨3, _⟩ => rfl

/-- [n, a, b] recast to [n, a, b, 1] reads, at (z, i, j, u), the operand at (z, i, j). -/
theorem unit_last_apply {n a b : ℕ} (x : (⟨3, ![n, a, b]⟩ : Shape).Idx → α)
    (h : (⟨3, ![n, a, b]⟩ : Shape).ShapeCasts ⟨4, ![n, a, b, 1]⟩) (z : Fin n) (i : Fin a) (j : Fin b) (u : Fin 1) :
    shapeCast ⟨4, ![n, a, b, 1]⟩ x h (ix4 z i j u) = x (ix3 z i j) := by
  refine shapeCast_apply x h _ _ ?_
  rw [Shape.rowMajor_val_three, Shape.rowMajor_val_four]
  show (z.val * a + i.val) * b + j.val = ((z.val * a + i.val) * b + j.val) * 1 + u.val
  have := u.isLt; omega

/-- The sum over the last axis of an [n, a, b, c] array, read at (z, i, j) on the extended reals, is the sum over k of
    the entries (z, i, j, k). -/
theorem lane_sum_apply {n a b c : ℕ} {φ : FTy} (src : FVec Ideal ⟨4, ![n, a, b, c]⟩ φ) (acc : BitVec φ.bits)
    (h : (⟨4, ![n, a, b, c]⟩ : Shape).Reduces [3] ⟨3, ![n, a, b]⟩) (hφ : FKind.Formats φ)
    (hacc : acc = FKind.add.neutral φ hφ) (z : Fin n) (i : Fin a) (j : Fin b) :
    multiReduction .add [3] ⟨3, ![n, a, b]⟩ src acc h hφ hacc (ix3 z i j) = ∑ k : Fin c, src (ix4 z i j k) := by
  refine (Ideal.multiReduction_add_single src acc h hφ hacc (ix3 z i j)).trans ?_
  refine Finset.sum_congr rfl fun k _ => congrArg src ?_
  funext ax
  refine Fin.ext ?_
  rw [Shape.Reduces.lift_val]
  unfold Shape.Reduces.liftVal
  match ax with
  | ⟨0, _⟩ => rfl
  | ⟨1, _⟩ => rfl
  | ⟨2, _⟩ => rfl
  | ⟨3, _⟩ => rfl

/-- A matrix [m, c] whose rows are the pairs (i, j) in row-major order, recast to [1, a, b, c], reads, at (z, i, j, k),
    row r = i·b + j and column k. -/
theorem rows_to_pairs_apply {a b c m : ℕ} (x : (⟨2, ![m, c]⟩ : Shape).Idx → α)
    (h : (⟨2, ![m, c]⟩ : Shape).ShapeCasts ⟨4, ![1, a, b, c]⟩) (z : Fin 1) (i : Fin a) (j : Fin b) (k : Fin c) (r : Fin m)
    (hr : r.val = i.val * b + j.val) :
    shapeCast ⟨4, ![1, a, b, c]⟩ x h (ix4 z i j k) = x (ix2 r k) := by
  refine shapeCast_apply x h _ _ ?_
  rw [Shape.rowMajor_val_two, Shape.rowMajor_val_four]
  show r.val * c + k.val = ((z.val * a + i.val) * b + j.val) * c + k.val
  have hz : z.val = 0 := by omega
  rw [hr, hz, Nat.zero_mul, Nat.zero_add]

/-- A stack [a, b, c] recast to a matrix [m, c] reads, at row r = i·b + j and column k, the stack at (i, j, k). -/
theorem pairs_to_rows_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) := by
  refine shapeCast_apply x h _ _ ?_
  rw [Shape.rowMajor_val_three, Shape.rowMajor_val_two]
  show (i.val * b + j.val) * c + k.val = r.val * c + k.val
  rw [hr]

/-- A per-pair word: [a, b] recast to [a, b, 1] and repeated along the last axis to [a, b, c] reads, at (i, j, k), the
    operand at (i, j). -/
theorem pair_word_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h1) h2 (ix3 i j k) = x (ix2 i j) := by
  refine (broadcastTo_apply _ h2 (ix3 i j k) (ix3 i j (0 : Fin 1)) fun ax => ?_).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl
  · refine shapeCast_apply x h1 _ _ ?_
    rw [Shape.rowMajor_val_two, Shape.rowMajor_val_three]
    show i.val * b + j.val = (i.val * b + j.val) * 1 + 0
    omega

end Cert.LibPairAxes
-- ==== Proof.PairBody.lean ====
/-
  What one grid point of the pairwise region stores, read at an entry, on the extended reals.

  At a grid point the region holds a block of 128 left rows L(i, ·), a block of 64 right rows R(j, ·), the bias, the
  LayerNorm scale γ and shift β (64 channels each) and the whole table E (65 × 64).  It forms the feature block
  x(i, j, p) = L(i, p) + R(j, p) + bias(p), the per-pair mean μ = (Σ_p x)/64 and variance σ² = (Σ_p (x − μ)²)/64 as sums
  over the last axis, the scaled block (x − μ)·rsqrt(σ² + ε)·γ(p), adds β(p) and clamps at zero.  Beside it, it forms for
  every pair of the block the 32-bit word of clamp(J − I, −32, 32) + 32, where I and J are the pair's positions in the
  whole sequence (block base plus offset), compares it with the words 0 … 64 into a one-hot row, and multiplies the
  8192 × 65 matrix of one-hot rows with the table: row i·64 + j of the product is the table's row of that word, because
  a sum of indicators times a family picks one member (the other terms are zero times an extended real, which is
  zero).  The stored value is the sum of the two.
  The printed payloads are regrouped into the named stages below (definitionally), and each stage is read at an
  index with the layout lemmas for four-axis arrays.
-/
import proofs.«125408_j14164802142800_2_alg».proof.Proof.Gen.KernelIdeal.Skeleton
import proofs.«125408_j14164802142800_2_alg».proof.Proof.Spec
import proofs.«125408_j14164802142800_2_alg».proof.Proof.RelWord
import proofs.«125408_j14164802142800_2_alg».proof.Proof.LibPairAxes
import proofs.«125408_j14164802142800_2_alg».proof.Proof.LibProductAt
import Idealize.ShloMosaic.Lib.ValueIdx
import Idealize.ShloMosaic.PureOps.Ideal.Laws

set_option maxRecDepth 16384

noncomputable section

namespace Cert.KernelIdeal.PairBody

open Cert.KernelIdeal Cert.PairSpec Cert.LibPairAxes
open Cert.KernelIdeal.Facts₀
open Idealize.ShloMosaic Idealize.ShloMosaic.ValueIdx

/-- The pre-normalisation feature block: the left rows repeated along the second position, the right rows along the
    first, the bias everywhere. -/
def feat (x0 : Vec Ideal S1x128x64 .f32) (x1 : Vec Ideal S1x64x64 .f32) (x2 : Vec Ideal S64 .f32) : FVec Ideal S1x128x64x64 .f32 :=
  addf (addf
      (broadcastTo S1x128x64x64 (shapeCast S1x128x1x64 (shapeCast S1x128x64 x0 shapeCasts_S1x128x64_S1x128x64)
        shapeCasts_S1x128x64_S1x128x1x64) broadcasts_S1x128x1x64_S1x128x64x64)
      (broadcastTo S1x128x64x64 (shapeCast S1x1x64x64 (shapeCast S1x64x64 x1 shapeCasts_S1x64x64_S1x64x64)
        shapeCasts_S1x64x64_S1x1x64x64) broadcasts_S1x1x64x64_S1x128x64x64))
    (broadcastTo S1x128x64x64 (shapeCast S1x1x1x64 x2 shapeCasts_S64_S1x1x1x64) broadcasts_S1x1x1x64_S1x128x64x64)

/-- The mean over the 64 channels of every pair, as an [1, 128, 64, 1] array. -/
def laneMean (v : FVec Ideal S1x128x64x64 .f32) : FVec Ideal S1x128x64x1 .f32 :=
  divf (shapeCast S1x128x64x1 (multiReduction .add [3] S1x128x64 v 0x00000000#32 reduces_S1x128x64x64_S1x128x64 (.inl rfl) rfl)
      shapeCasts_S1x128x64_S1x128x64x1)
    (broadcast S1x128x64x1 (Scalar.ofBits .f32 0x42800000#32))

/-- The centred feature block. -/
def centred (x : FVec Ideal S1x128x64x64 .f32) : FVec Ideal S1x128x64x64 .f32 :=
  subf x (broadcastTo S1x128x64x64 (laneMean x) broadcasts_S1x128x64x1_S1x128x64x64)

/-- The payload of the first part is LayerNorm's scaled block, before the shift. -/
theorem k1_pay2_eq (x0 : Vec Ideal S1x128x64 .f32) (x1 : Vec Ideal S1x64x64 .f32) (x2 x3 : Vec Ideal S64 .f32) :
    Gen.k1_pay2 x0 x1 x2 x3
      = mulf (mulf (centred (feat x0 x1 x2))
          (broadcastTo S1x128x64x64
            (rsqrt (addf (laneMean (mulf (centred (feat x0 x1 x2)) (centred (feat x0 x1 x2))))
              (broadcast S1x128x64x1 (Scalar.ofBits .f32 0x3727C5AC#32))))
            broadcasts_S1x128x64x1_S1x128x64x64))
        (broadcastTo S1x128x64x64 (shapeCast S1x1x1x64 x3 shapeCasts_S64_S1x1x1x64) broadcasts_S1x1x1x64_S1x128x64x64) := rfl

theorem cast_self3 {s : Shape} {α : Type} (x : s.Idx → α) (h : s.ShapeCasts s) (y : s.Idx) : shapeCast s x h y = x y :=
  shapeCast_apply x h y y rfl

theorem feat_apply (x0 : Vec Ideal S1x128x64 .f32) (x1 : Vec Ideal S1x64x64 .f32) (x2 : Vec Ideal S64 .f32)
    (z : Fin 1) (i : Fin 128) (j : Fin 64) (p : Fin 64) :
    feat x0 x1 x2 (ix4 z i j p) = x0 (ix3 z i p) + x1 (ix3 z j p) + x2 (ix1 p) := by
  unfold feat
  rw [addf_apply, addf_apply, rows_first_apply, rows_second_apply, channel_apply, cast_self3, cast_self3]

theorem laneMean_apply (v : FVec Ideal S1x128x64x64 .f32) (z : Fin 1) (i : Fin 128) (j : Fin 64) (u : Fin 1) :
    laneMean v (ix4 z i j u) = mean64 (fun q => v (ix4 z i j q)) := by
  unfold laneMean mean64
  rw [divf_apply, unit_last_apply]
  exact congrArg₂ Ideal.div (lane_sum_apply v 0x00000000#32 Facts₀.reduces_S1x128x64x64_S1x128x64 (.inl rfl) rfl z i j) rfl

theorem centred_apply (x : FVec Ideal S1x128x64x64 .f32) (z : Fin 1) (i : Fin 128) (j : Fin 64) (p : Fin 64) :
    centred x (ix4 z i j p) = x (ix4 z i j p) - mean64 (fun q => x (ix4 z i j q)) := by
  unfold centred
  rw [subf_apply, pair_scalar_apply, laneMean_apply]

theorem scaled_apply (x0 : Vec Ideal S1x128x64 .f32) (x1 : Vec Ideal S1x64x64 .f32) (x2 x3 : Vec Ideal S64 .f32)
    (z : Fin 1) (i : Fin 128) (j : Fin 64) (p : Fin 64) :
    Gen.k1_pay2 x0 x1 x2 x3 (ix4 z i j p)
      = ((fun q => x0 (ix3 z i q) + x1 (ix3 z j q) + x2 (ix1 q)) p - mean64 (fun q => x0 (ix3 z i q) + x1 (ix3 z j q) + x2 (ix1 q)))
        * Ideal.rsqrt (mean64 (fun q => ((fun q => x0 (ix3 z i q) + x1 (ix3 z j q) + x2 (ix1 q)) q - mean64 (fun q => x0 (ix3 z i q) + x1 (ix3 z j q) + x2 (ix1 q)))
            * ((fun q => x0 (ix3 z i q) + x1 (ix3 z j q) + x2 (ix1 q)) q - mean64 (fun q => x0 (ix3 z i q) + x1 (ix3 z j q) + x2 (ix1 q))))
          + Ideal.ofBits .f32 0x3727C5AC#32)
        * x3 (ix1 p) := by
  rw [k1_pay2_eq, mulf_apply, mulf_apply, pair_scalar_apply, channel_apply, centred_apply]
  simp only [feat_apply]
  rw [show ∀ (v : FVec Ideal S1x128x64x1 .f32) (y : S1x128x64x1.Idx), rsqrt v y = Ideal.rsqrt (v y) from fun _ _ => rfl,
    addf_apply, laneMean_apply, broadcast_apply]
  simp only [mulf_apply, centred_apply, feat_apply]
  rfl

/-! ## The relative-position row through a one-hot product -/

/-- The block of position words: for the pair (i, j) of the block, (word of column base + j) − (word of row base + i),
    signed-clamped to [−32, 32], plus 32. -/
def relBlock (v0 v1 : BitVec 32) : IVec S128x64 32 :=
  addi (minsi (broadcast S128x64 32#32) (maxsi (broadcast S128x64 4294967264#32)
      (subi (addi (broadcast S128x64 v1) (iota .tc S128x64 32 [1] Facts₀.iota_S128x64_d1_w32))
        (addi (broadcast S128x64 v0) (iota .tc S128x64 32 [0] Facts₀.iota_S128x64_d0_w32)))))
    (broadcast S128x64 32#32)

/-- The one-hot rows: row i·64 + j has a one in column k exactly when the pair's word is the word of k. -/
def onehotRows (w : IVec S128x64 32) : FVec Ideal S8192x65 .bf16 :=
  shapeCast S8192x65 (truncf .bf16 (sitofp .f32 (extui 32 (cmpi .eq
      (broadcastTo S128x64x65 (shapeCast S128x64x1 w Facts₀.shapeCasts_S128x64_S128x64x1) Facts₀.broadcasts_S128x64x1_S128x64x65)
      (iota .tc S128x64x65 32 [2] Facts₀.iota_S128x64x65_d2_w32)) Facts₀.natLt_1_32)) Facts₀.bitsLt_bf16_f32)
    Facts₀.shapeCasts_S128x64x65_S8192x65

/-- The one-hot rows times the table, laid out over the pairs of the block. -/
def embRows (w : IVec S128x64 32) (x5 : Vec Ideal S65x64 .f32) : FVec Ideal S1x128x64x64 .f32 :=
  shapeCast S1x128x64x64 (matmul dot_S8192x65_S65x64_S8192x64_1_0_0_1_n_n none (onehotRows w)
      (truncf .bf16 x5 Facts₀.bitsLt_bf16_f32) (constant S8192x64 .f32 0x00000000#32))
    Facts₀.shapeCasts_S8192x64_S1x128x64x64

/-- The stored value: the clamp at zero of scaled block plus shift, plus the table rows. -/
theorem k1_pay1_eq (v0 v1 : BitVec 32) (x5 : Vec Ideal S65x64 .f32) (a b : FVec Ideal S1x128x64x64 .f32) :
    Gen.k1_pay1 v0 v1 x5 a b
      = addf (maximumf (addf a b) (broadcast S1x128x64x64 (Scalar.ofBits .f32 0x00000000#32))) (embRows (relBlock v0 v1) x5) := rfl

/-- A position word: block base times block index plus the offset inside the block, all in 32-bit arithmetic, is the
    word of the position (no wrap below 2³²). -/
theorem pos_word_128 (g k K : Nat) (hK : K = 128 * g + k) :
    IntOp.addi (Scalar.muli (BitVec.ofNat 32 g) 128#32) (BitVec.ofNat 32 k) = BitVec.ofNat 32 K := by
  subst hK
  apply BitVec.eq_of_toNat_eq
  simp only [IntOp.addi, Scalar.muli, IntOp.muli, BitVec.toNat_add, BitVec.toNat_mul, BitVec.toNat_ofNat]
  omega

theorem pos_word_64 (g k K : Nat) (hK : K = 64 * g + k) :
    IntOp.addi (Scalar.muli (BitVec.ofNat 32 g) 64#32) (BitVec.ofNat 32 k) = BitVec.ofNat 32 K := by
  subst hK
  apply BitVec.eq_of_toNat_eq
  simp only [IntOp.addi, Scalar.muli, IntOp.muli, BitVec.toNat_add, BitVec.toNat_mul, BitVec.toNat_ofNat]
  omega

theorem relBlock_apply (gi gj : Nat) (i : Fin 128) (j : Fin 64) (I J : Nat)
    (hI : I = 128 * gi + i.val) (hJ : J = 64 * gj + j.val) :
    relBlock (Scalar.muli (BitVec.ofNat 32 gi) 128#32) (Scalar.muli (BitVec.ofNat 32 gj) 64#32) (ix2 i j) = relWord I J := by
  unfold relBlock relWord
  show IntOp.addi (IntOp.minsi 32#32 (IntOp.maxsi 4294967264#32 (IntOp.subi
      (IntOp.addi (Scalar.muli (BitVec.ofNat 32 gj) 64#32) (BitVec.ofNat 32 (0 * 64 + j.val)))
      (IntOp.addi (Scalar.muli (BitVec.ofNat 32 gi) 128#32) (BitVec.ofNat 32 (0 * 128 + i.val)))))) 32#32 = _
  simp only [Nat.zero_mul, Nat.zero_add]
  rw [pos_word_64 gj j.val J hJ, pos_word_128 gi i.val I hI]

/-- The signed reading of a one-bit comparison result widened to 32 bits: one where the two words agree, zero
    elsewhere; so a sum of such indicators against the words of k = 0 … 64 times a family picks the member whose
    index is the word's value. -/
theorem onehot_sum (w : BitVec 32) (r : Fin 65) (hw : w.toNat = r.val) (f : Fin 65 → EReal) :
    ∑ k : Fin 65, (FloatOps.sitofp (F := Ideal) .f32 ((IntOp.cmpi .eq w (BitVec.ofNat 32 k.val)).setWidth 32) : EReal) * f k = f r := by
  have hwr : w = BitVec.ofNat 32 r.val := by
    apply BitVec.eq_of_toNat_eq
    rw [hw, BitVec.toNat_ofNat]
    have := r.isLt; omega
  rw [Finset.sum_eq_single r]
  · have h1 : IntOp.cmpi .eq w (BitVec.ofNat 32 r.val) = 1#1 := by
      rw [hwr]; simp [IntOp.cmpi]
    rw [h1]
    show (((((1#1 : BitVec 1).setWidth 32).toInt : ℝ) : EReal)) * f r = f r
    rw [show ((1#1 : BitVec 1).setWidth 32).toInt = 1 from by decide]
    simp
  · intro k _ hk
    have h0 : IntOp.cmpi .eq w (BitVec.ofNat 32 k.val) = 0#1 := by
      have hne : w ≠ BitVec.ofNat 32 k.val := by
        intro e
        apply hk
        apply Fin.ext
        have := congrArg BitVec.toNat e
        rw [hw, BitVec.toNat_ofNat] at this
        have := k.isLt; omega
      have hb : (w == BitVec.ofNat 32 k.val) = false := beq_eq_false_iff_ne.mpr hne
      show BitVec.ofBool (w == BitVec.ofNat 32 k.val) = 0#1
      rw [hb]; rfl
    rw [h0]
    show (((((0#1 : BitVec 1).setWidth 32).toInt : ℝ) : EReal)) * f k = 0
    rw [show ((0#1 : BitVec 1).setWidth 32).toInt = 0 from by decide]
    simp
  · intro h; exact absurd (Finset.mem_univ r) h

theorem at2_eq_ix2 {n0 n1 : Nat} (a : Fin n0) (b : Fin n1) (ha : a.val < n0) (hb : b.val < n1) :
    (ProductAt.at2 a.val ha b.val hb : (⟨2, ![n0, n1]⟩ : Shape).Idx) = ix2 a b := by
  funext ax; match ax with | ⟨0, _⟩ => rfl | ⟨1, _⟩ => rfl

/-- An entry of the one-hot rows: the indicator that the pair's word is the word of the column. -/
theorem onehotRows_apply (w : IVec S128x64 32) (i : Fin 128) (j : Fin 64) (k : Fin 65) (r : Fin 8192)
    (hr : r.val = i.val * 64 + j.val) :
    onehotRows w (ix2 r k)
      = FloatOps.sitofp (F := Ideal) .f32 ((IntOp.cmpi .eq (w (ix2 i j)) (BitVec.ofNat 32 k.val)).setWidth 32) := by
  unfold onehotRows
  rw [pairs_to_rows_apply _ _ i j k r hr]
  show FloatOps.sitofp (F := Ideal) .f32 ((IntOp.cmpi .eq
      (broadcastTo S128x64x65 (shapeCast S128x64x1 w Facts₀.shapeCasts_S128x64_S128x64x1) Facts₀.broadcasts_S128x64x1_S128x64x65 (ix3 i j k))
      (BitVec.ofNat 32 (0 * 65 + k.val))).setWidth 32) = _
  rw [pair_word_apply, Nat.zero_mul, Nat.zero_add]

theorem onehot_lhs0 (y : S8192x64.Idx) (q : dot_S8192x65_S65x64_S8192x64_1_0_0_1_n_n.contr.Idx) :
    (dot_S8192x65_S65x64_S8192x64_1_0_0_1_n_n.lhsIdx y q 0).val = (y 0).val := by
  unfold DotDims.lhsIdx
  rw [dif_neg (show ¬(0 : Fin S8192x65.rank) ∈ dot_S8192x65_S65x64_S8192x64_1_0_0_1_n_n.lhsBatch by decide),
    dif_pos (show (0 : Fin S8192x65.rank) ∈ dot_S8192x65_S65x64_S8192x64_1_0_0_1_n_n.lhsNonContracting by decide)]
  rfl

theorem onehot_rhs1 (y : S8192x64.Idx) (q : dot_S8192x65_S65x64_S8192x64_1_0_0_1_n_n.contr.Idx) :
    (dot_S8192x65_S65x64_S8192x64_1_0_0_1_n_n.rhsIdx y q 1).val = (y 1).val := by
  unfold DotDims.rhsIdx
  rw [dif_neg (show ¬(1 : Fin S65x64.rank) ∈ dot_S8192x65_S65x64_S8192x64_1_0_0_1_n_n.rhsBatch by decide),
    dif_pos (show (1 : Fin S65x64.rank) ∈ dot_S8192x65_S65x64_S8192x64_1_0_0_1_n_n.rhsNonContracting by decide)]
  rfl

/-- The one-hot product picks the table's row: where the pair's word has the value R, the entry (i, j, p) of the
    product is E(R, p). -/
theorem embRows_apply (w : IVec S128x64 32) (x5 : Vec Ideal S65x64 .f32) (z : Fin 1) (i : Fin 128) (j : Fin 64) (p : Fin 64)
    (R : Fin 65) (hw : (w (ix2 i j)).toNat = R.val) :
    embRows w x5 (ix4 z i j p) = x5 (ix2 R p) := by
  have hr : i.val * 64 + j.val < 8192 := by have := i.isLt; have := j.isLt; omega
  unfold embRows
  rw [rows_to_pairs_apply _ _ z i j p ⟨i.val * 64 + j.val, hr⟩ rfl]
  refine (Ideal.matmul_constant_zero_apply dot_S8192x65_S65x64_S8192x64_1_0_0_1_n_n none _ _ (ix2 ⟨i.val * 64 + j.val, hr⟩ p)).trans ?_
  rw [ProductAt.product_sum_eq dot_S8192x65_S65x64_S8192x64_1_0_0_1_n_n rfl rfl rfl rfl onehot_lhs0 onehot_rhs1]
  refine Eq.trans (Finset.sum_congr rfl fun k _ => ?_) (onehot_sum (w (ix2 i j)) R hw (fun k => x5 (ix2 k p)))
  have e1 := at2_eq_ix2 (⟨i.val * 64 + j.val, hr⟩ : Fin 8192) k hr k.isLt
  have e2 := at2_eq_ix2 k p k.isLt p.isLt
  rw [show (ProductAt.at2 ((ix2 (⟨i.val * 64 + j.val, hr⟩ : Fin 8192) p : S8192x64.Idx) 0).val (idx2_lt0 _) k.val k.isLt
        : (⟨2, ![8192, 65]⟩ : Shape).Idx) = ix2 ⟨i.val * 64 + j.val, hr⟩ k from e1,
    show (ProductAt.at2 k.val k.isLt ((ix2 (⟨i.val * 64 + j.val, hr⟩ : Fin 8192) p : S8192x64.Idx) 1).val (idx2_lt1 _)
        : (⟨2, ![65, 64]⟩ : Shape).Idx) = ix2 k p from e2,
    onehotRows_apply w i j k ⟨i.val * 64 + j.val, hr⟩ rfl]
  rfl

/-- THE STORED VALUE AT AN ENTRY.  At the grid point whose row block starts at 128·gi and whose column block starts at
    64·gj, entry (i, j, p) of the stored block is LayerNorm of the pair's feature at channel p, clamped at zero, plus the
    table's row for the pair of positions I = 128·gi + i, J = 64·gj + j. -/
theorem pay_apply (gi gj : Nat) (x0 : Vec Ideal S1x128x64 .f32) (x1 : Vec Ideal S1x64x64 .f32) (x2 x3 x4 : Vec Ideal S64 .f32)
    (x5 : Vec Ideal S65x64 .f32) (z : Fin 1) (i : Fin 128) (j : Fin 64) (p : Fin 64) (I J : Fin 1024)
    (hI : I.val = 128 * gi + i.val) (hJ : J.val = 64 * gj + j.val) :
    Gen.k1_pay1 (Scalar.muli (BitVec.ofNat 32 gi) 128#32) (Scalar.muli (BitVec.ofNat 32 gj) 64#32) x5
        (Gen.k1_pay2 x0 x1 x2 x3) (Gen.k1_pay3 x4) (ix4 z i j p)
      = max (layerNorm (fun q => x0 (ix3 z i q) + x1 (ix3 z j q) + x2 (ix1 q)) x3 x4 p) (Ideal.ofBits .f32 0x00000000#32)
        + x5 (ix2 (relRow I J) p) := by
  have hw : ((relBlock (Scalar.muli (BitVec.ofNat 32 gi) 128#32) (Scalar.muli (BitVec.ofNat 32 gj) 64#32)) (ix2 i j)).toNat
      = (relRow I J).val := by
    rw [relBlock_apply gi gj i j I.val J.val hI hJ]; exact relWord_toNat I J
  have h3 : Gen.k1_pay3 x4 (ix4 z i j p) = x4 (ix1 p) :=
    channel_apply x4 Facts₀.shapeCasts_S64_S1x1x1x64 Facts₀.broadcasts_S1x1x1x64_S1x128x64x64 z i j p
  rw [k1_pay1_eq, addf_apply, maximumf_apply, addf_apply, broadcast_apply, scaled_apply, h3,
    embRows_apply _ x5 z i j p (relRow I J) hw]
  rfl

end Cert.KernelIdeal.PairBody

end
-- ==== Proof.PairArray.lean ====
/-
  What the pairwise region leaves in its output array.

  The region runs over a 2 × 8 × 16 grid.  The point with coordinates (g0, g1, g2) reads the block of 128 left rows
  (g0, 128·g1 …) and the block of 64 right rows (g0, 64·g2 …), the whole bias, scale, shift and relative-position
  table, and writes back the 1 × 128 × 64 × 64 block of the output at block index (g0, g1, g2, 0).  Entry (z, i, j, p) of
  that block is the pair function at the array position (g0, 128·g1 + i, 64·g2 + j, p); the blocks tile the array, so
  the array ends holding the pair function of the two projected arrays and the four argument arrays.
-/
import proofs.«125408_j14164802142800_2_alg».proof.Proof.FrameKernelIdealP
import proofs.«125408_j14164802142800_2_alg».proof.Proof.PairBody
import proofs.«125408_j14164802142800_2_alg».proof.Proof.Spec
import Idealize.ShloMosaic.Lib.Pipeline.Value

set_option maxRecDepth 16384

noncomputable section

namespace Cert.KernelIdeal.PairArray

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg1.N,
    win1_0.index t (0 : Fin 3) = (grid1.coords t 0).val ∧ win1_0.index t (1 : Fin 3) = (grid1.coords t 1).val ∧ win1_0.index t (2 : Fin 3) = 0
    ∧ win1_1.index t (0 : Fin 3) = (grid1.coords t 0).val ∧ win1_1.index t (1 : Fin 3) = (grid1.coords t 2).val ∧ win1_1.index t (2 : Fin 3) = 0
    ∧ win1_2.index t (0 : Fin 1) = 0 ∧ win1_3.index t (0 : Fin 1) = 0 ∧ win1_4.index t (0 : Fin 1) = 0
    ∧ win1_5.index t (0 : Fin 2) = 0 ∧ win1_5.index t (1 : Fin 2) = 0
    ∧ win1_6.index t (0 : Fin 4) = (grid1.coords t 0).val ∧ win1_6.index t (1 : Fin 4) = (grid1.coords t 1).val
    ∧ win1_6.index t (2 : Fin 4) = (grid1.coords t 2).val ∧ win1_6.index t (3 : Fin 4) = 0
    ∧ (grid1.coords t 0).val ≤ 1 ∧ (grid1.coords t 1).val ≤ 7 ∧ (grid1.coords t 2).val ≤ 15 :=
  (by decide +kernel : ∀ t : Fin grid1.N, _)

theorem idx_onto : ∀ (q0 : Fin 2) (q1 : Fin 8) (q2 : Fin 16), ∃ t : Fin cfg1.N, win1_6.index t = ![q0.val, q1.val, q2.val, 0] :=
  (by decide +kernel : ∀ (q0 : Fin 2) (q1 : Fin 8) (q2 : Fin 16), ∃ t : Fin grid1.N, win1_6.index t = ![q0.val, q1.val, q2.val, 0])

/-! ## The input blocks, read at an entry -/

/-- Entry (z, i, q) of the left block at point t is the left array at (g0, 128·g1 + i, q). -/
theorem left_blk (c : Dev nD) (t : Fin cfg1.N) (z : Fin 1) (i : Fin 128) (q : Fin 64) (B : Fin 2) (I : Fin 1024)
    (hB : B.val = (grid1.coords t 0).val) (hI : I.val = 128 * (grid1.coords t 1).val + i.val) :
    iblk1 (V2 m ρ) c 0 t (ix3 z i q) = V2 m ρ c main_v2_0 (ix3 B I q) := by
  obtain ⟨a0, a1, a2, -⟩ := idx_facts t
  show V2 m ρ c main_v2_0 (((cfg1.win 0).blk t).view.emb (ix3 z i q)) = _
  refine congrArg (V2 m ρ c main_v2_0) (funext fun a => Fin.ext ?_)
  match a with
  | ⟨0, _⟩ => show win1_0.index t (0 : Fin 3) * 1 + 1 * z.val = B.val; have := z.isLt; omega
  | ⟨1, _⟩ => show win1_0.index t (1 : Fin 3) * 128 + 1 * i.val = I.val; omega
  | ⟨2, _⟩ => show win1_0.index t (2 : Fin 3) * 64 + 1 * q.val = q.val; omega

/-- Entry (z, j, q) of the right block at point t is the right array at (g0, 64·g2 + j, q). -/
theorem right_blk (c : Dev nD) (t : Fin cfg1.N) (z : Fin 1) (j : Fin 64) (q : Fin 64) (B : Fin 2) (J : Fin 1024)
    (hB : B.val = (grid1.coords t 0).val) (hJ : J.val = 64 * (grid1.coords t 2).val + j.val) :
    iblk1 (V2 m ρ) c 1 t (ix3 z j q) = V2 m ρ c main_v2_1 (ix3 B J q) := by
  obtain ⟨-, -, -, a0, a1, a2, -⟩ := idx_facts t
  show V2 m ρ c main_v2_1 (((cfg1.win 1).blk t).view.emb (ix3 z j q)) = _
  refine congrArg (V2 m ρ c main_v2_1) (funext fun a => Fin.ext ?_)
  match a with
  | ⟨0, _⟩ => show win1_1.index t (0 : Fin 3) * 1 + 1 * z.val = B.val; have := z.isLt; omega
  | ⟨1, _⟩ => show win1_1.index t (1 : Fin 3) * 64 + 1 * j.val = J.val; omega
  | ⟨2, _⟩ => show win1_1.index t (2 : Fin 3) * 64 + 1 * q.val = q.val; omega

/-- The bias block is the whole bias array. -/
theorem bias_blk (c : Dev nD) (t : Fin cfg1.N) : (iblk1 (V2 m ρ) c 2 t : S64.Idx → EReal) = V2 m ρ c main_arg2 := by
  obtain ⟨-, -, -, -, -, -, a0, -⟩ := idx_facts t
  funext y
  show V2 m ρ c main_arg2 (((cfg1.win 2).blk t).view.emb y) = _
  refine congrArg (V2 m ρ c main_arg2) (funext fun a => Fin.ext ?_)
  match a with
  | ⟨0, _⟩ => show win1_2.index t (0 : Fin 1) * 64 + 1 * (y 0).val = (y 0).val; omega

/-- The scale block is the whole scale array. -/
theorem scale_blk (c : Dev nD) (t : Fin cfg1.N) : (iblk1 (V2 m ρ) c 3 t : S64.Idx → EReal) = V2 m ρ c main_arg3 := by
  obtain ⟨-, -, -, -, -, -, -, a0, -⟩ := idx_facts t
  funext y
  show V2 m ρ c main_arg3 (((cfg1.win 3).blk t).view.emb y) = _
  refine congrArg (V2 m ρ c main_arg3) (funext fun a => Fin.ext ?_)
  match a with
  | ⟨0, _⟩ => show win1_3.index t (0 : Fin 1) * 64 + 1 * (y 0).val = (y 0).val; omega

/-- The shift block is the whole shift array. -/
theorem shift_blk (c : Dev nD) (t : Fin cfg1.N) : (iblk1 (V2 m ρ) c 4 t : S64.Idx → EReal) = V2 m ρ c main_arg4 := by
  obtain ⟨-, -, -, -, -, -, -, -, a0, -⟩ := idx_facts t
  funext y
  show V2 m ρ c main_arg4 (((cfg1.win 4).blk t).view.emb y) = _
  refine congrArg (V2 m ρ c main_arg4) (funext fun a => Fin.ext ?_)
  match a with
  | ⟨0, _⟩ => show win1_4.index t (0 : Fin 1) * 64 + 1 * (y 0).val = (y 0).val; omega

/-- The table block is the whole relative-position table. -/
theorem table_blk (c : Dev nD) (t : Fin cfg1.N) : (iblk1 (V2 m ρ) c 5 t : S65x64.Idx → EReal) = V2 m ρ c main_arg5 := by
  obtain ⟨-, -, -, -, -, -, -, -, -, a0, a1, -⟩ := idx_facts t
  funext y
  show V2 m ρ c main_arg5 (((cfg1.win 5).blk t).view.emb y) = _
  refine congrArg (V2 m ρ c main_arg5) (funext fun a => Fin.ext ?_)
  match a with
  | ⟨0, _⟩ => show win1_5.index t (0 : Fin 2) * 65 + 1 * (y 0).val = (y 0).val; omega
  | ⟨1, _⟩ => show win1_5.index t (1 : Fin 2) * 64 + 1 * (y 1).val = (y 1).val; omega

/-- Entry (z, i, j, p) of the output block at point t sits in the array at (g0, 128·g1 + i, 64·g2 + j, p). -/
theorem out_emb (t : Fin cfg1.N) (z : Fin 1) (i : Fin 128) (j p : Fin 64) (B : Fin 2) (I J : Fin 1024)
    (hB : B.val = (grid1.coords t 0).val) (hI : I.val = 128 * (grid1.coords t 1).val + i.val)
    (hJ : J.val = 64 * (grid1.coords t 2).val + j.val) :
    (((cfg1.win 6).blk t).view.emb (ix4 z i j p) : S2x1024x1024x64.Idx) = ix4 B I J p := by
  obtain ⟨-, -, -, -, -, -, -, -, -, -, -, a0, a1, a2, a3, -⟩ := idx_facts t
  refine funext fun a => Fin.ext ?_
  match a with
  | ⟨0, _⟩ => show win1_6.index t (0 : Fin 4) * 1 + 1 * z.val = B.val; have := z.isLt; omega
  | ⟨1, _⟩ => show win1_6.index t (1 : Fin 4) * 128 + 1 * i.val = I.val; omega
  | ⟨2, _⟩ => show win1_6.index t (2 : Fin 4) * 64 + 1 * j.val = J.val; omega
  | ⟨3, _⟩ => show win1_6.index t (3 : Fin 4) * 64 + 1 * p.val = p.val; omega

/-! ## What a point writes back -/

/-- The stored value at an entry, with the six blocks read as the arrays at the entry's array position, is the pair
    function there. -/
theorem entry_eq (x0 : (⟨3, ![1, 128, 64]⟩ : Shape).Idx → EReal) (x1 : (⟨3, ![1, 64, 64]⟩ : Shape).Idx → EReal)
    (x2 x3 x4 : (⟨1, ![64]⟩ : Shape).Idx → EReal) (x5 : (⟨2, ![65, 64]⟩ : Shape).Idx → EReal)
    (L R : (⟨3, ![2, 1024, 64]⟩ : Shape).Idx → EReal) (bias gamma beta : (⟨1, ![64]⟩ : Shape).Idx → EReal)
    (E : (⟨2, ![65, 64]⟩ : Shape).Idx → EReal) (z : Fin 1) (i : Fin 128) (j p : Fin 64) (B : Fin 2) (I J : Fin 1024)
    (h0 : ∀ q, x0 (ix3 z i q) = L (ix3 B I q)) (h1 : ∀ q, x1 (ix3 z j q) = R (ix3 B J q))
    (h2 : x2 = bias) (h3 : x3 = gamma) (h4 : x4 = beta) (h5 : x5 = E) :
    max (Cert.PairSpec.layerNorm (fun q => x0 (ix3 z i q) + x1 (ix3 z j q) + x2 (ix1 q)) x3 x4 p)
        (Ideal.ofBits .f32 0x00000000#32) + x5 (ix2 (Cert.PairSpec.relRow I J) p)
      = Cert.PairSpec.pair L R bias gamma beta E (ix4 B I J p) := by
  subst h2 h3 h4 h5
  have hf : (fun q => x0 (ix3 z i q) + x1 (ix3 z j q) + x2 (ix1 q)) = Cert.PairSpec.pre L R x2 B I J :=
    funext fun q => by rw [h0 q, h1 q]; rfl
  rw [hf]
  rfl

/-- WHAT POINT t WRITES BACK is block t of the pair function of the six arrays as the region finds them. -/
theorem flushed_eq (c : Dev nD) (t : Fin cfg1.N) :
    (dat1 (V2 m ρ) c).flushed 6 t = ((cfg1.win 6).blk t).view.read (Elt Ideal)
      (Cert.PairSpec.pair (V2 m ρ c main_v2_0) (V2 m ρ c main_v2_1) (V2 m ρ c main_arg2) (V2 m ρ c main_arg3)
        (V2 m ρ c main_arg4) (V2 m ρ c main_arg5)) := by
  show (cfg1.win 6).cut (grid1.coords t) ((dat1 (V2 m ρ) c).after 6 t) = _
  rw [after1_6]
  unfold out1_6
  rw [View.canon_unit_zero hz4]
  simp only [View.ld_unit_zero (S := S1x128x64) hz3, View.ld_unit_zero (S := S1x64x64) hz3,
    View.ld_unit_zero (S := S64) hz1, View.ld_unit_zero (S := S65x64) hz2]
  obtain ⟨-, -, -, -, -, -, -, -, -, -, -, -, -, -, -, b0, b1, b2⟩ := idx_facts t
  refine funext fun (y : S1x128x64x64.Idx) => ?_
  obtain ⟨z, i, j, p, rfl⟩ : ∃ (z : Fin 1) (i : Fin 128) (j p : Fin 64), y = ix4 z i j p :=
    ⟨y 0, y 1, y 2, y 3, eq_ix4 y⟩
  obtain ⟨B, hB⟩ : ∃ B : Fin 2, B.val = (grid1.coords t 0).val := ⟨⟨(grid1.coords t 0).val, by omega⟩, rfl⟩
  obtain ⟨I, hI⟩ : ∃ I : Fin 1024, I.val = 128 * (grid1.coords t 1).val + i.val :=
    ⟨⟨128 * (grid1.coords t 1).val + i.val, by have := i.isLt; omega⟩, rfl⟩
  obtain ⟨J, hJ⟩ : ∃ J : Fin 1024, J.val = 64 * (grid1.coords t 2).val + j.val :=
    ⟨⟨64 * (grid1.coords t 2).val + j.val, by have := j.isLt; omega⟩, rfl⟩
  refine (Cert.KernelIdeal.PairBody.pay_apply (grid1.coords t 1).val (grid1.coords t 2).val
    (iblk1 (V2 m ρ) c 0 t) (iblk1 (V2 m ρ) c 1 t) (iblk1 (V2 m ρ) c 2 t) (iblk1 (V2 m ρ) c 3 t) (iblk1 (V2 m ρ) c 4 t)
    (iblk1 (V2 m ρ) c 5 t) z i j p I J hI hJ).trans ?_
  refine (entry_eq (iblk1 (V2 m ρ) c 0 t) (iblk1 (V2 m ρ) c 1 t) (iblk1 (V2 m ρ) c 2 t) (iblk1 (V2 m ρ) c 3 t)
    (iblk1 (V2 m ρ) c 4 t) (iblk1 (V2 m ρ) c 5 t) (V2 m ρ c main_v2_0) (V2 m ρ c main_v2_1) (V2 m ρ c main_arg2)
    (V2 m ρ c main_arg3) (V2 m ρ c main_arg4) (V2 m ρ c main_arg5) z i j p B I J
    (fun q => left_blk m ρ c t z i q B I hB hI) (fun q => right_blk m ρ c t z j q B J hB hJ)
    (bias_blk m ρ c t) (scale_blk m ρ c t) (shift_blk m ρ c t) (table_blk m ρ c t)).trans ?_
  exact (congrArg (Cert.PairSpec.pair (V2 m ρ c main_v2_0) (V2 m ρ c main_v2_1) (V2 m ρ c main_arg2)
    (V2 m ρ c main_arg3) (V2 m ρ c main_arg4) (V2 m ρ c main_arg5)) (out_emb t z i j p B I J hB hI hJ)).symm

/-! ## The blocks tile the array -/

/-- An index of the array is in point t's block iff each coordinate is in the block's range on its axis. -/
theorem mem_blk (t : Fin cfg1.N) (i : S2x1024x1024x64.Idx) :
    i ∈ ((cfg1.win 6).blk t).view.set ↔ ∀ a : Fin 4, win1_6.index t a * S1x128x64x64.size a ≤ (i a).val
      ∧ (i a).val < win1_6.index t a * S1x128x64x64.size a + S1x128x64x64.size a := by
  show i ∈ ((View.whole main_v3).slice (win1_6.rect t)).set ↔ _
  rw [View.set_slice_whole, Rect.mem_set_unit]
  exact Iff.rfl

/-- Every index (b, I, J, p) of the array is in the block of the point at (b, I / 128, J / 64). -/
theorem cover (i : S2x1024x1024x64.Idx) :
    ∃ t : Fin cfg1.N, (cfg1.win 6).flush t = true ∧ i ∈ ((cfg1.win 6).blk t).view.set := by
  have h0 : (i 0).val < 2 := (i 0).isLt
  have h1 : (i 1).val < 1024 := (i 1).isLt
  have h2 : (i 2).val < 1024 := (i 2).isLt
  have h3 : (i 3).val < 64 := (i 3).isLt
  obtain ⟨t, ht⟩ := idx_onto ⟨(i 0).val, h0⟩ ⟨(i 1).val / 128, by omega⟩ ⟨(i 2).val / 64, by omega⟩
  have q0 : win1_6.index t (0 : Fin 4) = (i 0).val := congrFun ht 0
  have q1 : win1_6.index t (1 : Fin 4) = (i 1).val / 128 := congrFun ht 1
  have q2 : win1_6.index t (2 : Fin 4) = (i 2).val / 64 := congrFun ht 2
  have q3 : win1_6.index t (3 : Fin 4) = 0 := congrFun ht 3
  refine ⟨t, flush1_6 t, ?_⟩
  rw [mem_blk]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 128 ≤ (i 1).val ∧ (i 1).val < win1_6.index t (1 : Fin 4) * 128 + 128; omega
  | ⟨2, _⟩ => show win1_6.index t (2 : Fin 4) * 64 ≤ (i 2).val ∧ (i 2).val < win1_6.index t (2 : Fin 4) * 64 + 64; omega
  | ⟨3, _⟩ => show win1_6.index t (3 : Fin 4) * 64 ≤ (i 3).val ∧ (i 3).val < win1_6.index t (3 : Fin 4) * 64 + 64; omega

/-! ## The six arrays as the region finds them -/

theorem V2_left (c : Dev nD) : V2 m ρ c main_v2_0 = (dat0 (V1 m ρ) c).arrAt 3 cfg0.N := W2_arr m ρ c 3
theorem V2_right (c : Dev nD) : V2 m ρ c main_v2_1 = (dat0 (V1 m ρ) c).arrAt 4 cfg0.N := W2_arr m ρ c 4
theorem V2_arg2 (c : Dev nD) : V2 m ρ c main_arg2 = m ((c.tc : Thread nD τ).loc main_arg2) :=
  ((W3_arr m ρ c 2).trans (((dat1 (V2 m ρ) c).arrAt_in 2 rfl _).trans (A_eq1 (V2 m ρ) c 2))).symm.trans (W3_main_arg2 m ρ c)
theorem V2_arg3 (c : Dev nD) : V2 m ρ c main_arg3 = m ((c.tc : Thread nD τ).loc main_arg3) :=
  ((W3_arr m ρ c 3).trans (((dat1 (V2 m ρ) c).arrAt_in 3 rfl _).trans (A_eq1 (V2 m ρ) c 3))).symm.trans (W3_main_arg3 m ρ c)
theorem V2_arg4 (c : Dev nD) : V2 m ρ c main_arg4 = m ((c.tc : Thread nD τ).loc main_arg4) :=
  ((W3_arr m ρ c 4).trans (((dat1 (V2 m ρ) c).arrAt_in 4 rfl _).trans (A_eq1 (V2 m ρ) c 4))).symm.trans (W3_main_arg4 m ρ c)
theorem V2_arg5 (c : Dev nD) : V2 m ρ c main_arg5 = m ((c.tc : Thread nD τ).loc main_arg5) :=
  ((W3_arr m ρ c 5).trans (((dat1 (V2 m ρ) c).arrAt_in 5 rfl _).trans (A_eq1 (V2 m ρ) c 5))).symm.trans (W3_main_arg5 m ρ c)

/-! ## The array after the region -/

/-- The output array ends holding the pair function of the two projected arrays and the four argument arrays. -/
theorem pair_array (c : Dev nD) :
    (dat1 (V2 m ρ) c).arrAt 6 cfg1.N
      = Cert.PairSpec.pair ((dat0 (V1 m ρ) c).arrAt 3 cfg0.N) ((dat0 (V1 m ρ) c).arrAt 4 cfg0.N)
          (m ((c.tc : Thread nD τ).loc main_arg2)) (m ((c.tc : Thread nD τ).loc main_arg3)) (m ((c.tc : Thread nD τ).loc main_arg4)) (m ((c.tc : Thread nD τ).loc main_arg5)) := by
  refine ((dat1 (V2 m ρ) c).arrAt_eq_of_cover 6 _ (fun t _ => flushed_eq m ρ c t) cover).trans ?_
  rw [V2_left, V2_right, V2_arg2, V2_arg3, V2_arg4, V2_arg5]

end Cert.KernelIdeal.PairArray

end
-- ==== Proof.LibTakeRows.lean ====
/-
  Two read-at-an-index facts about the host operations that jnp's `take` along axis 0 of a matrix lowers to, stated over
  arbitrary extents; they mention no program.

  * `gather_rows_apply`: the gather of ROWS of a table `[N, D]` at start indices laid out `[R, C, 1]` (offset axis the
    last result axis, the table's row axis collapsed, the index vector on the trailing unit axis, slices `[1, D]`)
    read at `(r, c, e)` is the table at row `idx[r, c, 0]`, read signed and clamped into `[0, N − 1]`, column `e`.
  * `reduce_andi_eq_one_of_forall`: a reduction by `and` from the initial value `true` is `true` at a result index as
    soon as every operand entry that reduces into that index is `true` (the converse of the library's read-back of a
    `jnp.all`), and `fold_andi_one`, the fact about finite folds it rests on.
-/
import Idealize.ShloMosaic.Lib.ValueIdx
import Idealize.ShloMosaic.Lib.Affine
import Idealize.ShloMosaic.PureOps.Reduce

noncomputable section

namespace Idealize.ShloMosaic.TakeRows

open Idealize.ShloMosaic Idealize.ShloMosaic.ValueIdx

/-! ## A fold by `and` over entries that are all `true` -/

/-- A fold by `and` from `true` over a finite set on which every entry is `true` is `true`. -/
theorem fold_andi_one {ι : Type} (x : ι → BitVec 1) (S : Finset ι) (hx : ∀ i ∈ S, x i = 1#1) :
    S.fold IntOp.andi 1#1 x = 1#1 := by
  induction S using Finset.cons_induction with
  | empty => rfl
  | cons a S ha ih =>
    rw [Finset.fold_cons, hx a (Finset.mem_cons_self a S), ih fun i hi => hx i (Finset.mem_cons.mpr (Or.inr hi))]
    decide

/-- A `stablehlo.reduce` by `and` whose initial value is `true` is `true` at `j` when every operand entry that reduces
    into `j` is `true`. -/
theorem reduce_andi_eq_one_of_forall {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i : s.Idx, h.drop i = j → x i = 1#1) :
    Host.reduce IntOp.andi x init h hu j = 1#1 := by
  rw [Host.reduce_eq_fold, hinit]
  exact fold_andi_one x _ fun i hi => hx i (Finset.mem_filter.mp hi).2

/-! ## The gather of rows of a matrix, read at an index -/

section Rows
variable {α : Type}

/-- The dimension numbers of `take(T, idx, axis = 0)` for a table `[N, D]`, start indices `[R, C, 1]` and a result
    `[R, C, D]`; their conditions `wf` are decided on a program's literal shapes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Axis 1 of a rank-2 table is kept when axis 0 is the one collapsed. -/
theorem one_mem_kept : (1 : Fin 2) ∈ (List.finRange 2).filter (· ∉ ([0] ++ [] : List (Fin 2))) := by decide

/-- THE ROW GATHER READ AT `(r, c, e)`: the table at the row the start index `idx[r, c, 0]` names — read signed and
    clamped into `[0, N − 1]`, as StableHLO's gather clamps every start index — and at column `e`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (rowDims N D R C wf) x idx (ix3 r c e)
      = x (ix2 ⟨min (idx (ix3 r c (0 : Fin 1))).toInt.toNat (N - 1), by omega⟩ e) := by
  unfold Host.gather
  congr 1
  funext a
  refine Fin.ext ?_
  match a with
  | ⟨0, _⟩ =>
    show (rowDims N D R C wf).start (ix3 r c e) idx 0 + (rowDims N D R C wf).batchCoord (ix3 r c e) 0
        + (rowDims N D R C wf).offCoord (ix3 r c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c e) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 r c e) idx 1 + (rowDims N D R C wf).batchCoord (ix3 r c e) 1
        + (rowDims N D R C wf).offCoord (ix3 r c e) 1 = e.val
    rw [GatherDims.batchCoord_eq_zero _ _ _ List.not_mem_nil]
    have hs : (rowDims N D R C wf).start (ix3 r c e) idx 1 = 0 := by
      unfold GatherDims.start
      rw [dif_neg (show (1 : Fin 2) ∉ ([0] : List (Fin 2)) by decide)]
    have hk : (1 : Fin 2) ∈ (rowDims N D R C wf).sKept := one_mem_kept
    have ho : (rowDims N D R C wf).offCoord (ix3 r c e) 1 = e.val := by
      unfold GatherDims.offCoord
      rw [dif_pos hk]
      rfl
    rw [hs, ho]
    omega

end Rows

end Idealize.ShloMosaic.TakeRows

end
-- ==== Proof.RefValue.lean ====
/-
  The reference program's result, read on the extended reals, is the specification function.

  The program is read one operation at a time (the generated reading module gives each operation's value at an index);
  this module composes those readings at an index (b, i, j, p) written with explicit coordinates:

    * the two contractions are the two halves of the linear layer (rows 0..255 and 256..511 of the weight);
    * the broadcasts and the two additions give the pre-normalisation feature left(b,i,p) + right(b,j,p) + bias(p);
    * the two sums over the 64 channels, each started from the zero word (which is the real 0) and divided by the word
      of 64, are the mean and the variance; the reciprocal root, scale and shift give LayerNorm; the maximum with the
      zero word is the clamp;
    * the integer chain iota − iota, signed clamp to [−32, 32], + 32 is the word `relWord i j`; it is never negative,
      so the wrap-around select keeps it; the row gather, which clamps its start index into [0, 64], reads row
      `relRow i j` of the table.
-/
import proofs.«125408_j14164802142800_2_alg».proof.Proof.Gen.ReferenceIdeal.Read
import proofs.«125408_j14164802142800_2_alg».proof.Proof.Spec
import proofs.«125408_j14164802142800_2_alg».proof.Proof.RelWord
import proofs.«125408_j14164802142800_2_alg».proof.Proof.LibTakeRows
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.PairSpec

/-! ## The two halves of the linear layer -/

/-- The first contraction at (b, n, p): the sum over d of s(b, n, d) · W(d, p). -/
theorem v2_eq (x0 : (⟨S2x1024x256, .f32⟩ : BufTy).Contents (Elt Ideal)) (x1 : (⟨S512x64, .f32⟩ : BufTy).Contents (Elt Ideal))
    (b : Fin 2) (n : Fin 1024) (p : Fin 64) :
    val_main_v2 (F := Ideal) x0 x1 (ix3 b n p) = proj 0 (by omega) x0 x1 (ix3 b n p) := by
  rw [val_main_v2_apply]
  unfold proj
  refine Finset.sum_congr rfl fun k _ => ?_
  rw [val_main_v0_apply]
  have e1 : lidx_main_v2 (ix3 b n p) k = ix3 b n k :=
    funext fun a => Fin.ext (by match a with | ⟨0, _⟩ => rfl | ⟨1, _⟩ => rfl | ⟨2, _⟩ => rfl)
  have e2 : idx_main_v0 (ridx_main_v2 (ix3 b n p) k) = ix2 ⟨0 + k.val, by have := k.isLt; omega⟩ p :=
    funext fun a => Fin.ext (by
      match a with
      | ⟨0, _⟩ => exact (Nat.zero_add k.val).symm
      | ⟨1, _⟩ => rfl)
  rw [e1, e2]

/-- The second contraction at (b, n, p): the sum over d of s(b, n, d) · W(256 + d, p). -/
theorem v3_eq (x0 : (⟨S2x1024x256, .f32⟩ : BufTy).Contents (Elt Ideal)) (x1 : (⟨S512x64, .f32⟩ : BufTy).Contents (Elt Ideal))
    (b : Fin 2) (n : Fin 1024) (p : Fin 64) :
    val_main_v3 (F := Ideal) x0 x1 (ix3 b n p) = proj 256 (by omega) x0 x1 (ix3 b n p) := by
  rw [val_main_v3_apply]
  unfold proj
  refine Finset.sum_congr rfl fun k _ => ?_
  rw [val_main_v1_apply]
  have e1 : lidx_main_v3 (ix3 b n p) k = ix3 b n k :=
    funext fun a => Fin.ext (by match a with | ⟨0, _⟩ => rfl | ⟨1, _⟩ => rfl | ⟨2, _⟩ => rfl)
  have e2 : idx_main_v1 (ridx_main_v3 (ix3 b n p) k) = ix2 ⟨256 + k.val, by have := k.isLt; omega⟩ p :=
    funext fun a => Fin.ext (by
      match a with
      | ⟨0, _⟩ => rfl
      | ⟨1, _⟩ => rfl)
  rw [e1, e2]

/-! ## The pre-normalisation feature -/

/-- The pair feature of (i, j) in batch b, as a function of the channel: left row of i, right row of j, bias. -/
abbrev feat (x0 : (⟨S2x1024x256, .f32⟩ : BufTy).Contents (Elt Ideal)) (x1 : (⟨S512x64, .f32⟩ : BufTy).Contents (Elt Ideal))
    (x2 : (⟨S64, .f32⟩ : BufTy).Contents (Elt Ideal))
    (b : Fin 2) (i j : Fin 1024) : Fin 64 → EReal :=
  pre (proj 0 (by omega) x0 x1) (proj 256 (by omega) x0 x1) x2 b i j

/-- The two broadcasts of the contractions and the broadcast bias, added, are the pair feature. -/
theorem v11_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (b : Fin 2) (i j : Fin 1024) (p : Fin 64) :
    val_main_v11 (F := Ideal) x0 x1 x2 (ix4 b i j p) = feat x0 x1 x2 b i j p := by
  rw [val_main_v11_apply, val_main_v8_apply, val_main_v6_apply, val_main_v4_apply, val_main_v7_apply, val_main_v5_apply,
    val_main_v10_apply, val_main_v9_apply]
  have e1 : idx_main_v4 (idx_main_v6 (ix4 b i j p)) = ix3 b i p := funext fun a => Fin.ext (by match a with | ⟨0, _⟩ => rfl | ⟨1, _⟩ => rfl | ⟨2, _⟩ => rfl)
  have e2 : idx_main_v5 (idx_main_v7 (ix4 b i j p)) = ix3 b j p := funext fun a => Fin.ext (by match a with | ⟨0, _⟩ => rfl | ⟨1, _⟩ => rfl | ⟨2, _⟩ => rfl)
  have e3 : idx_main_v9 (idx_main_v10 (ix4 b i j p)) = ix1 p := funext fun a => Fin.ext (by match a with | ⟨0, _⟩ => rfl)
  rw [e1, e2, e3, v2_eq, v3_eq]
  rfl

/-! ## Mean and variance over the 64 channels -/

/-- The first channel sum: started from the zero word, which is 0, it is the plain sum of the feature. -/
theorem v12_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (b : Fin 2) (i j : Fin 1024) :
    val_main_v12 (F := Ideal) x0 x1 x2 (ix3 b i j) = ∑ q : Fin 64, feat x0 x1 x2 b i j q := by
  rw [val_main_v12_apply, val_main_cst_apply, Ideal.ofBits_def, Ideal.ofBits_zero_f32, zero_add]
  refine Finset.sum_congr rfl fun k _ => ?_
  have e : idx_main_v12 (ix3 b i j) k = ix4 b i j k := funext fun a => Fin.ext (by match a with | ⟨0, _⟩ => rfl | ⟨1, _⟩ => rfl | ⟨2, _⟩ => rfl | ⟨3, _⟩ => rfl)
  rw [e, v11_eq]

/-- The mean: the channel sum over the word of 64. -/
theorem v15_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (b : Fin 2) (i j : Fin 1024) :
    val_main_v15 (F := Ideal) x0 x1 x2 (ix4 b i j (0 : Fin 1)) = mean64 (feat x0 x1 x2 b i j) := by
  rw [val_main_v15_apply, val_main_v13_apply, val_main_v14_apply, val_main_cst_0_apply, Ideal.hostDivf_def, Ideal.ofBits_def]
  have e : idx_main_v13 (ix4 b i j (0 : Fin 1)) = ix3 b i j := funext fun a => Fin.ext (by match a with | ⟨0, _⟩ => rfl | ⟨1, _⟩ => rfl | ⟨2, _⟩ => rfl)
  rw [e, v12_eq]
  rfl

/-- The centred feature. -/
theorem v17_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (b : Fin 2) (i j : Fin 1024) (p : Fin 64) :
    val_main_v17 (F := Ideal) x0 x1 x2 (ix4 b i j p) = feat x0 x1 x2 b i j p - mean64 (feat x0 x1 x2 b i j) := by
  rw [val_main_v17_apply, v11_eq, val_main_v16_apply]
  have e : idx_main_v16 (ix4 b i j p) = ix4 b i j (0 : Fin 1) := funext fun a => Fin.ext (by match a with | ⟨0, _⟩ => rfl | ⟨1, _⟩ => rfl | ⟨2, _⟩ => rfl | ⟨3, _⟩ => rfl)
  rw [e, v15_eq, Ideal.subf_def]

/-- The centred feature again (the program broadcasts the mean a second time). -/
theorem v24_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (b : Fin 2) (i j : Fin 1024) (p : Fin 64) :
    val_main_v24 (F := Ideal) x0 x1 x2 (ix4 b i j p) = feat x0 x1 x2 b i j p - mean64 (feat x0 x1 x2 b i j) := by
  rw [val_main_v24_apply, v11_eq, val_main_v23_apply]
  have e : idx_main_v23 (ix4 b i j p) = ix4 b i j (0 : Fin 1) := funext fun a => Fin.ext (by match a with | ⟨0, _⟩ => rfl | ⟨1, _⟩ => rfl | ⟨2, _⟩ => rfl | ⟨3, _⟩ => rfl)
  rw [e, v15_eq, Ideal.subf_def]

/-- The second channel sum: the sum of the squared centred feature. -/
theorem v19_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (b : Fin 2) (i j : Fin 1024) :
    val_main_v19 (F := Ideal) x0 x1 x2 (ix3 b i j)
      = ∑ q : Fin 64, (feat x0 x1 x2 b i j q - mean64 (feat x0 x1 x2 b i j)) * (feat x0 x1 x2 b i j q - mean64 (feat x0 x1 x2 b i j)) := by
  rw [val_main_v19_apply, val_main_cst_1_apply, Ideal.ofBits_def, Ideal.ofBits_zero_f32, zero_add]
  refine Finset.sum_congr rfl fun k _ => ?_
  have e : idx_main_v19 (ix3 b i j) k = ix4 b i j k := funext fun a => Fin.ext (by match a with | ⟨0, _⟩ => rfl | ⟨1, _⟩ => rfl | ⟨2, _⟩ => rfl | ⟨3, _⟩ => rfl)
  rw [e, val_main_v18_apply, v17_eq, Ideal.mulf_def]

/-- The reciprocal root of the variance plus ε. -/
theorem v27_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (b : Fin 2) (i j : Fin 1024) :
    val_main_v27 (F := Ideal) x0 x1 x2 (ix4 b i j (0 : Fin 1))
      = Ideal.rsqrt (mean64 (fun q => (feat x0 x1 x2 b i j q - mean64 (feat x0 x1 x2 b i j)) * (feat x0 x1 x2 b i j q - mean64 (feat x0 x1 x2 b i j)))
          + Ideal.ofBits .f32 0x3727C5AC#32) := by
  rw [val_main_v27_apply, val_main_v26_apply, val_main_v22_apply, val_main_v20_apply, val_main_v21_apply, val_main_cst_2_apply,
    val_main_v25_apply, val_main_cst_3_apply]
  have e : idx_main_v20 (ix4 b i j (0 : Fin 1)) = ix3 b i j := funext fun a => Fin.ext (by match a with | ⟨0, _⟩ => rfl | ⟨1, _⟩ => rfl | ⟨2, _⟩ => rfl)
  rw [e, v19_eq, Ideal.hostUnary_rsqrt_def, Ideal.addf_def, Ideal.hostDivf_def, Ideal.ofBits_def, Ideal.ofBits_def]
  rfl

/-! ## LayerNorm and the clamp at zero -/

/-- Centre, scale by the reciprocal root, then the affine map: LayerNorm of the feature at channel p. -/
theorem v35_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (x3 x4 : (⟨S64, .f32⟩ : BufTy).Contents (Elt Ideal)) (b : Fin 2) (i j : Fin 1024) (p : Fin 64) :
    val_main_v35 (F := Ideal) x0 x1 x2 x3 x4 (ix4 b i j p) = layerNorm (feat x0 x1 x2 b i j) x3 x4 p := by
  rw [val_main_v35_apply, val_main_v32_apply, val_main_v29_apply, v24_eq, val_main_v28_apply, val_main_v31_apply,
    val_main_v30_apply, val_main_v34_apply, val_main_v33_apply]
  have e28 : idx_main_v28 (ix4 b i j p) = ix4 b i j (0 : Fin 1) := funext fun a => Fin.ext (by match a with | ⟨0, _⟩ => rfl | ⟨1, _⟩ => rfl | ⟨2, _⟩ => rfl | ⟨3, _⟩ => rfl)
  have e30 : idx_main_v30 (idx_main_v31 (ix4 b i j p)) = ix1 p := funext fun a => Fin.ext (by match a with | ⟨0, _⟩ => rfl)
  have e33 : idx_main_v33 (idx_main_v34 (ix4 b i j p)) = ix1 p := funext fun a => Fin.ext (by match a with | ⟨0, _⟩ => rfl)
  rw [e28, e30, e33, v27_eq, Ideal.addf_def, Ideal.mulf_def, Ideal.mulf_def]
  rfl

/-- The maximum with the broadcast zero word. -/
theorem v36_eq (x0 : (⟨S2x1024x256, .f32⟩ : BufTy).Contents (Elt Ideal)) (x1 : (⟨S512x64, .f32⟩ : BufTy).Contents (Elt Ideal))
    (x2 : (⟨S64, .f32⟩ : BufTy).Contents (Elt Ideal))
    (x3 x4 : (⟨S64, .f32⟩ : BufTy).Contents (Elt Ideal)) (b : Fin 2) (i j : Fin 1024) (p : Fin 64) :
    val_main_v36 (F := Ideal) x0 x1 x2 x3 x4 (ix4 b i j p)
      = max (layerNorm (feat x0 x1 x2 b i j) x3 x4 p) (Ideal.ofBits .f32 0x00000000#32) := by
  rw [val_main_v36_apply, v35_eq, val_main_call0_v0_apply, val_main_call0_cst_apply, Ideal.maximumf_def, Ideal.ofBits_def]

/-! ## The relative-position word and the row it selects -/

/-- Column iota minus row iota, signed-clamped to [−32, 32], plus 32: the word `relWord i j`. -/
theorem v45_eq (i j : Fin 1024) : val_main_v45 (F := Ideal) (ix2 i j) = relWord i.val j.val := by
  rw [val_main_v45_apply, val_main_v43_apply, val_main_call1_v4_apply, val_main_call1_v3_apply, val_main_c_4_apply,
    val_main_call1_v2_apply, val_main_call1_v1_apply, val_main_call1_v0_apply, val_main_c_apply, val_main_v42_apply,
    val_main_v40_apply, val_main_v38_apply, val_main_v37_apply, val_main_v41_apply, val_main_v39_apply, val_main_v37_apply,
    val_main_v44_apply, val_main_c_5_apply]
  rfl

/-- The word is not negative, so the wrap-around select keeps it. -/
theorem v50_eq (i j : Fin 1024) : val_main_v50 (F := Ideal) (ix2 i j) = relWord i.val j.val := by
  rw [val_main_v50_apply, val_main_v47_apply, v45_eq, val_main_v46_apply, val_main_c_6_apply]
  have h : IntOp.cmpi .slt (relWord i.val j.val) 0#32 = 0#1 := by
    show BitVec.ofBool ((relWord i.val j.val).slt 0#32) = 0#1
    rw [relWord_not_slt_zero]
    rfl
  rw [h, select_zero]

/-- The program's gather record is the row-gather record of a 65 × 64 table at 1024 × 1024 start indices. -/
theorem gather_dims_eq :
    gather_S65x64_S1024x1024x1_S1024x1024x64_2_0_n_n_0_2_164
      = TakeRows.rowDims 65 64 1024 1024 gather_S65x64_S1024x1024x1_S1024x1024x64_2_0_n_n_0_2_164_wf := rfl

/-- The gather reads row `relRow i j` of the table: the start index is the word, whose signed reading is the row
    number, already inside [0, 64], so the gather's clamp does nothing. -/
theorem v52_eq (x5 : (⟨S65x64, .f32⟩ : BufTy).Contents (Elt Ideal)) (i j : Fin 1024) (p : Fin 64) :
    val_main_v52 (F := Ideal) x5 (ix3 i j p) = x5 (ix2 (relRow i j) p) := by
  have hw : val_main_v51 (F := Ideal) (ix3 i j (0 : Fin 1)) = relWord i.val j.val := by
    rw [val_main_v51_apply]
    have e : idx_main_v51 (ix3 i j (0 : Fin 1)) = ix2 i j := funext fun a => Fin.ext (by match a with | ⟨0, _⟩ => rfl | ⟨1, _⟩ => rfl)
    rw [e, v50_eq]
  unfold val_main_v52
  rw [gather_dims_eq]
  refine (TakeRows.gather_rows_apply (by decide) _ x5 (val_main_v51 (F := Ideal)) i j p).trans ?_
  refine congrArg (fun r => x5 (ix2 r p)) (Fin.ext ?_)
  show min (val_main_v51 (F := Ideal) (ix3 i j (0 : Fin 1))).toInt.toNat (65 - 1) = (relRow i j).val
  rw [hw, relWord_toInt, Int.toNat_natCast]
  have := (relRow i j).isLt
  omega

/-- The two broadcasts of the gathered rows (a leading unit axis, then the batch axis). -/
theorem v54_eq (x5 : (⟨S65x64, .f32⟩ : BufTy).Contents (Elt Ideal)) (b : Fin 2) (i j : Fin 1024) (p : Fin 64) :
    val_main_v54 (F := Ideal) x5 (ix4 b i j p) = x5 (ix2 (relRow i j) p) := by
  rw [val_main_v54_apply, val_main_v53_apply]
  have e : idx_main_v53 (idx_main_v54 (ix4 b i j p)) = ix3 i j p := funext fun a => Fin.ext (by match a with | ⟨0, _⟩ => rfl | ⟨1, _⟩ => rfl | ⟨2, _⟩ => rfl)
  rw [e, v52_eq]

/-! ## The whole program -/

/-- The reference's result is the specification function. -/
theorem ref_eq (x0 : (⟨S2x1024x256, .f32⟩ : BufTy).Contents (Elt Ideal)) (x1 : (⟨S512x64, .f32⟩ : BufTy).Contents (Elt Ideal))
    (x2 x3 x4 : (⟨S64, .f32⟩ : BufTy).Contents (Elt Ideal)) (x5 : (⟨S65x64, .f32⟩ : BufTy).Contents (Elt Ideal)) :
    Cert.ReferenceIdeal.Read.val_main_v55 (F := Ideal) x0 x1 x2 x3 x4 x5 = Cert.PairSpec.out x0 x1 x2 x3 x4 x5 := by
  funext y
  obtain ⟨b, i, j, p, rfl⟩ : ∃ (b : Fin 2) (i j : Fin 1024) (p : Fin 64), y = ix4 b i j p :=
    ⟨y 0, y 1, y 2, y 3, eq_ix4 y⟩
  rw [val_main_v55_apply, v36_eq, v54_eq, Ideal.addf_def]
  rfl

end Cert.ReferenceIdeal.RefValue

end
-- ==== Proof.lean ====
/-
  The certificate: the three frames, the idealization's ledger (empty) and the equality of the two idealized programs'
  results on the extended reals.

  Both idealized programs compute, from the single representations s, the weight W, the bias, the LayerNorm scale and
  shift and the relative-position table E, the function `Cert.PairSpec.out`: the two halves of the linear layer as sums
  over the 256 input features, the pairwise sum with the bias, LayerNorm over the 64 channels, a clamp at zero, and the
  table's row for the clamped position difference.  The kernel computes the two halves in a first pipelined region
  (one block of 1024 rows per batch element) and the pair stage in a second one (blocks of 128 × 64 pairs), selecting
  the table's row by a one-hot product; its run names the result array, whose blocks are restrictions of that one
  function and tile the array.  The reference computes the same function by whole-array operations and a row gather.
  No algebraic law is needed beyond the order of a finite sum and zero times an extended real being zero, so the
  finiteness precondition is not opened.
-/
import proofs.«125408_j14164802142800_2_alg».proof.Defs
import proofs.«125408_j14164802142800_2_alg».proof.Proof.Gen.Kernel
import proofs.«125408_j14164802142800_2_alg».proof.Proof.Gen.Kernel.Skeleton
import proofs.«125408_j14164802142800_2_alg».proof.Proof.Gen.Kernel.Launch
import proofs.«125408_j14164802142800_2_alg».proof.Proof.Gen.Kernel.Points
import proofs.«125408_j14164802142800_2_alg».proof.Proof.FrameKernelP
import proofs.«125408_j14164802142800_2_alg».proof.Proof.Gen.KernelIdeal
import proofs.«125408_j14164802142800_2_alg».proof.Proof.Gen.KernelIdeal.Skeleton
import proofs.«125408_j14164802142800_2_alg».proof.Proof.Gen.KernelIdeal.Launch
import proofs.«125408_j14164802142800_2_alg».proof.Proof.Gen.KernelIdeal.Points
import proofs.«125408_j14164802142800_2_alg».proof.Proof.FrameKernelIdealP
import proofs.«125408_j14164802142800_2_alg».proof.Proof.Gen.ReferenceIdeal
import proofs.«125408_j14164802142800_2_alg».proof.Proof.Gen.Pre_finite_inputs
import proofs.«125408_j14164802142800_2_alg».proof.Proof.Gen.ReferenceIdeal.Run
import proofs.«125408_j14164802142800_2_alg».proof.Proof.Gen.ReferenceIdeal.Read
import proofs.«125408_j14164802142800_2_alg».proof.Proof.KernelRun
import proofs.«125408_j14164802142800_2_alg».proof.Proof.ProjValue
import proofs.«125408_j14164802142800_2_alg».proof.Proof.PairArray
import proofs.«125408_j14164802142800_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel (hKernel := Cert.Kernel.Gen.facts) (hPre_finite_inputs := Cert.Pre_finite_inputs.Gen.facts) :=
  fun m ρ _ => Cert.Kernel.GenP.frame m ρ

/-- The idealized kernel runs, and its arguments end unchanged. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The idealized reference runs, and its arguments end unchanged: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The array the kernel's second region leaves is the specification of the six argument arrays: the pair stage of
    the two arrays the first region leaves, which are the two halves of the linear layer. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.GenP.dat1 (Cert.KernelIdeal.GenP.V2 m ρ) c).arrAt 6 Cert.KernelIdeal.cfg1.N
      = Cert.PairSpec.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  rw [Cert.KernelIdeal.PairArray.pair_array, Cert.KernelIdeal.ProjValue.left_array, Cert.KernelIdeal.ProjValue.right_array]
  rfl

/-- Run from memories that agree on the arguments, the two idealized programs end with the same result array: both
    are the specification of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.PairSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_value m ρ c), (h c).2⟩)
      (Cert.KernelIdeal.RunP.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, Cert.ReferenceIdeal.RefValue.ref_eq, (hagree c).1, (hagree c).2.1,
      (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
